-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v82)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v82) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v114) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S128x256 : Shape := ⟨2, ![128, 256]⟩
abbrev S256 : Shape := ⟨1, ![256]⟩
abbrev S256x256 : Shape := ⟨2, ![256, 256]⟩
abbrev S3x256x256 : Shape := ⟨3, ![3, 256, 256]⟩
abbrev S3x256 : Shape := ⟨2, ![3, 256]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S3x256x256 : S_.BroadcastsInDim S3x256x256 (![] : Fin 0 → Fin S3x256x256.rank)
  reducesTo_S3x256x256_S_d0_1_2 : S3x256x256.ReducesTo [0, 1, 2] S_
  bcast_S_S3x256 : S_.BroadcastsInDim S3x256 (![] : Fin 0 → Fin S3x256.rank)
  reducesTo_S3x256_S_d0_1 : S3x256.ReducesTo [0, 1] S_

variable [Facts]

def fn_part2 {F : FTy → Type} [FloatOps F] (main_arg9 : FVec F S3x256x256 .f32) (main_arg10 : FVec F S3x256 .f32) (main_v33 : IVec S_ 1) : IVec S_ 1 :=
  let main_v34 : FVec F S3x256x256 .f32 := Host.absf main_arg9
  let main_cst_12 : FVec F S_ .f32 := constant S_ .f32 0x7F800000#32
  let main_v35 : FVec F S3x256x256 .f32 := broadcastInDim S3x256x256 ![] bcast_S_S3x256x256 main_cst_12
  let main_v36 : IVec S3x256x256 1 := cmpf .olt main_v34 main_v35
  let main_c_13 : IVec S_ 1 := constantI S_ 1 1#1
  let main_v37 : IVec S_ 1 := (fun x v => Host.reduce IntOp.andi x v reducesTo_S3x256x256_S_d0_1_2 h_S_) main_v36 main_c_13
  let main_v38 : IVec S_ 1 := andi main_v33 main_v37
  let main_v39 : FVec F S3x256 .f32 := Host.absf main_arg10
  let main_cst_14 : FVec F S_ .f32 := constant S_ .f32 0x7F800000#32
  let main_v40 : FVec F S3x256 .f32 := broadcastInDim S3x256 ![] bcast_S_S3x256 main_cst_14
  let main_v41 : IVec S3x256 1 := cmpf .olt main_v39 main_v40
  let main_c_15 : IVec S_ 1 := constantI S_ 1 1#1
  let main_v42 : IVec S_ 1 := (fun x v => Host.reduce IntOp.andi x v reducesTo_S3x256_S_d0_1 h_S_) main_v41 main_c_15
  let main_v43 : IVec S_ 1 := andi main_v38 main_v42
  main_v43

def fn_part1 {F : FTy → Type} [FloatOps F] (main_arg6 : FVec F S256 .f32) (main_arg7 : FVec F S3x256x256 .f32) (main_arg8 : FVec F S3x256 .f32) (main_arg9 : FVec F S3x256x256 .f32) (main_arg10 : FVec F S3x256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg6
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S3x256x256 .f32 := Host.absf main_arg7
  let main_cst_8 : FVec F S_ .f32 := constant S_ .f32 0x7F800000#32
  let main_v25 : FVec F S3x256x256 .f32 := broadcastInDim S3x256x256 ![] bcast_S_S3x256x256 main_cst_8
  let main_v26 : IVec S3x256x256 1 := cmpf .olt main_v24 main_v25
  let main_c_9 : IVec S_ 1 := constantI S_ 1 1#1
  let main_v27 : IVec S_ 1 := (fun x v => Host.reduce IntOp.andi x v reducesTo_S3x256x256_S_d0_1_2 h_S_) main_v26 main_c_9
  let main_v28 : IVec S_ 1 := andi main_v23 main_v27
  let main_v29 : FVec F S3x256 .f32 := Host.absf main_arg8
  let main_cst_10 : FVec F S_ .f32 := constant S_ .f32 0x7F800000#32
  let main_v30 : FVec F S3x256 .f32 := broadcastInDim S3x256 ![] bcast_S_S3x256 main_cst_10
  let main_v31 : IVec S3x256 1 := cmpf .olt main_v29 main_v30
  let main_c_11 : IVec S_ 1 := constantI S_ 1 1#1
  let main_v32 : IVec S_ 1 := (fun x v => Host.reduce IntOp.andi x v reducesTo_S3x256_S_d0_1 h_S_) main_v31 main_c_11
  let main_v33 : IVec S_ 1 := andi main_v28 main_v32
  fn_part2 (F := F) main_arg9 main_arg10 main_v33

def fn {F : FTy → Type} [FloatOps F] (main_arg0 : FVec F S50000x128 .f32) (main_arg1 : IVec S2x800000 32) (main_arg2 : IVec S50000 32) (main_arg3 : FVec F S128x256 .f32) (main_arg4 : FVec F S256 .f32) (main_arg5 : FVec F S256x256 .f32) (main_arg6 : FVec F S256 .f32) (main_arg7 : FVec F S3x256x256 .f32) (main_arg8 : FVec F S3x256 .f32) (main_arg9 : FVec F S3x256x256 .f32) (main_arg10 : FVec F S3x256 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg3
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg5
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg6 main_arg7 main_arg8 main_arg9 main_arg10 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S128x256 : Shape := ⟨2, ![128, 256]⟩
abbrev S256 : Shape := ⟨1, ![256]⟩
abbrev S256x256 : Shape := ⟨2, ![256, 256]⟩
abbrev S3x256x256 : Shape := ⟨3, ![3, 256, 256]⟩
abbrev S3x256 : Shape := ⟨2, ![3, 256]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x256 : Shape := ⟨2, ![1, 256]⟩
abbrev S50000x256 : Shape := ⟨2, ![50000, 256]⟩
abbrev S5000x128 : Shape := ⟨2, ![5000, 128]⟩
abbrev S5000x256 : Shape := ⟨2, ![5000, 256]⟩
abbrev S1x256x256 : Shape := ⟨3, ![1, 256, 256]⟩
abbrev S800000x256 : Shape := ⟨2, ![800000, 256]⟩
abbrev S50000x1 : Shape := ⟨2, ![50000, 1]⟩

abbrev nBuf : Space → Nat
  | .hbm => 107
  | .vmem => 40
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000, .i32⟩
  | .hbm, ⟨3, _⟩ => ⟨S128x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S3x256x256, .f32⟩
  | .hbm, ⟨8, _⟩ => ⟨S3x256, .f32⟩
  | .hbm, ⟨9, _⟩ => ⟨S3x256x256, .f32⟩
  | .hbm, ⟨10, _⟩ => ⟨S3x256, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S_, .i32⟩
  | .hbm, ⟨16, _⟩ => ⟨S800000, .i32⟩
  | .hbm, ⟨17, _⟩ => ⟨S800000, .i1⟩
  | .hbm, ⟨18, _⟩ => ⟨S_, .i32⟩
  | .hbm, ⟨19, _⟩ => ⟨S800000, .i32⟩
  | .hbm, ⟨20, _⟩ => ⟨S800000, .i32⟩
  | .hbm, ⟨21, _⟩ => ⟨S800000, .i32⟩
  | .hbm, ⟨22, _⟩ => ⟨S800000x1, .i32⟩
  | .hbm, ⟨23, _⟩ => ⟨S800000x128, .f32⟩
  | .hbm, ⟨24, _⟩ => ⟨S_, .f32⟩
  | .hbm, ⟨25, _⟩ => ⟨S50000x128, .f32⟩
  | .hbm, ⟨26, _⟩ => ⟨S800000x1, .i32⟩
  | .hbm, ⟨27, _⟩ => ⟨S50000x128, .f32⟩
  | .hbm, ⟨28, _⟩ => ⟨S1x256, .f32⟩
  | .hbm, ⟨29, _⟩ => ⟨S1x256, .f32⟩
  | .hbm, ⟨30, _⟩ => ⟨S50000x256, .f32⟩
  | .hbm, ⟨31, _⟩ => ⟨S1x256x256, .f32⟩
  | .hbm, ⟨32, _⟩ => ⟨S256x256, .f32⟩
  | .hbm, ⟨33, _⟩ => ⟨S1x256, .f32⟩
  | .hbm, ⟨34, _⟩ => ⟨S256, .f32⟩
  | .hbm, ⟨35, _⟩ => ⟨S1x256x256, .f32⟩
  | .hbm, ⟨36, _⟩ => ⟨S256x256, .f32⟩
  | .hbm, ⟨37, _⟩ => ⟨S1x256, .f32⟩
  | .hbm, ⟨38, _⟩ => ⟨S256, .f32⟩
  | .hbm, ⟨39, _⟩ => ⟨S_, .i32⟩
  | .hbm, ⟨40, _⟩ => ⟨S800000, .i32⟩
  | .hbm, ⟨41, _⟩ => ⟨S800000, .i1⟩
  | .hbm, ⟨42, _⟩ => ⟨S_, .i32⟩
  | .hbm, ⟨43, _⟩ => ⟨S800000, .i32⟩
  | .hbm, ⟨44, _⟩ => ⟨S800000, .i32⟩
  | .hbm, ⟨45, _⟩ => ⟨S800000, .i32⟩
  | .hbm, ⟨46, _⟩ => ⟨S800000x1, .i32⟩
  | .hbm, ⟨47, _⟩ => ⟨S800000x256, .f32⟩
  | .hbm, ⟨48, _⟩ => ⟨S_, .f32⟩
  | .hbm, ⟨49, _⟩ => ⟨S50000x256, .f32⟩
  | .hbm, ⟨50, _⟩ => ⟨S800000x1, .i32⟩
  | .hbm, ⟨51, _⟩ => ⟨S50000x256, .f32⟩
  | .hbm, ⟨52, _⟩ => ⟨S1x256, .f32⟩
  | .hbm, ⟨53, _⟩ => ⟨S1x256, .f32⟩
  | .hbm, ⟨54, _⟩ => ⟨S50000x256, .f32⟩
  | .hbm, ⟨55, _⟩ => ⟨S1x256x256, .f32⟩
  | .hbm, ⟨56, _⟩ => ⟨S256x256, .f32⟩
  | .hbm, ⟨57, _⟩ => ⟨S1x256, .f32⟩
  | .hbm, ⟨58, _⟩ => ⟨S256, .f32⟩
  | .hbm, ⟨59, _⟩ => ⟨S1x256x256, .f32⟩
  | .hbm, ⟨60, _⟩ => ⟨S256x256, .f32⟩
  | .hbm, ⟨61, _⟩ => ⟨S1x256, .f32⟩
  | .hbm, ⟨62, _⟩ => ⟨S256, .f32⟩
  | .hbm, ⟨63, _⟩ => ⟨S_, .i32⟩
  | .hbm, ⟨64, _⟩ => ⟨S800000, .i32⟩
  | .hbm, ⟨65, _⟩ => ⟨S800000, .i1⟩
  | .hbm, ⟨66, _⟩ => ⟨S_, .i32⟩
  | .hbm, ⟨67, _⟩ => ⟨S800000, .i32⟩
  | .hbm, ⟨68, _⟩ => ⟨S800000, .i32⟩
  | .hbm, ⟨69, _⟩ => ⟨S800000, .i32⟩
  | .hbm, ⟨70, _⟩ => ⟨S800000x1, .i32⟩
  | .hbm, ⟨71, _⟩ => ⟨S800000x256, .f32⟩
  | .hbm, ⟨72, _⟩ => ⟨S_, .f32⟩
  | .hbm, ⟨73, _⟩ => ⟨S50000x256, .f32⟩
  | .hbm, ⟨74, _⟩ => ⟨S800000x1, .i32⟩
  | .hbm, ⟨75, _⟩ => ⟨S50000x256, .f32⟩
  | .hbm, ⟨76, _⟩ => ⟨S1x256, .f32⟩
  | .hbm, ⟨77, _⟩ => ⟨S1x256, .f32⟩
  | .hbm, ⟨78, _⟩ => ⟨S50000x256, .f32⟩
  | .hbm, ⟨79, _⟩ => ⟨S1x256x256, .f32⟩
  | .hbm, ⟨80, _⟩ => ⟨S256x256, .f32⟩
  | .hbm, ⟨81, _⟩ => ⟨S1x256, .f32⟩
  | .hbm, ⟨82, _⟩ => ⟨S256, .f32⟩
  | .hbm, ⟨83, _⟩ => ⟨S1x256x256, .f32⟩
  | .hbm, ⟨84, _⟩ => ⟨S256x256, .f32⟩
  | .hbm, ⟨85, _⟩ => ⟨S1x256, .f32⟩
  | .hbm, ⟨86, _⟩ => ⟨S256, .f32⟩
  | .hbm, ⟨87, _⟩ => ⟨S_, .i32⟩
  | .hbm, ⟨88, _⟩ => ⟨S800000, .i32⟩
  | .hbm, ⟨89, _⟩ => ⟨S800000, .i1⟩
  | .hbm, ⟨90, _⟩ => ⟨S_, .i32⟩
  | .hbm, ⟨91, _⟩ => ⟨S800000, .i32⟩
  | .hbm, ⟨92, _⟩ => ⟨S800000, .i32⟩
  | .hbm, ⟨93, _⟩ => ⟨S800000, .i32⟩
  | .hbm, ⟨94, _⟩ => ⟨S800000x1, .i32⟩
  | .hbm, ⟨95, _⟩ => ⟨S800000x256, .f32⟩
  | .hbm, ⟨96, _⟩ => ⟨S_, .f32⟩
  | .hbm, ⟨97, _⟩ => ⟨S50000x256, .f32⟩
  | .hbm, ⟨98, _⟩ => ⟨S800000x1, .i32⟩
  | .hbm, ⟨99, _⟩ => ⟨S50000x256, .f32⟩
  | .hbm, ⟨100, _⟩ => ⟨S1x256, .f32⟩
  | .hbm, ⟨101, _⟩ => ⟨S1x256, .f32⟩
  | .hbm, ⟨102, _⟩ => ⟨S50000x256, .f32⟩
  | .hbm, ⟨103, _⟩ => ⟨S_, .f32⟩
  | .hbm, ⟨104, _⟩ => ⟨S256x256, .f32⟩
  | .hbm, ⟨105, _⟩ => ⟨S50000x1, .i32⟩
  | .hbm, ⟨106, _⟩ => ⟨S256x256, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x256, .f32⟩
  | .local _ .vmem, ⟨5, _⟩ => ⟨S1x256, .f32⟩
  | .local _ .vmem, ⟨6, _⟩ => ⟨S256x256, .f32⟩
  | .local _ .vmem, ⟨7, _⟩ => ⟨S1x256, .f32⟩
  | .local _ .vmem, ⟨8, _⟩ => ⟨S5000x256, .f32⟩
  | .local _ .vmem, ⟨9, _⟩ => ⟨S5000x256, .f32⟩
  | .local _ .vmem, ⟨10, _⟩ => ⟨S5000x256, .f32⟩
  | .local _ .vmem, ⟨11, _⟩ => ⟨S5000x256, .f32⟩
  | .local _ .vmem, ⟨12, _⟩ => ⟨S5000x256, .f32⟩
  | .local _ .vmem, ⟨13, _⟩ => ⟨S5000x256, .f32⟩
  | .local _ .vmem, ⟨14, _⟩ => ⟨S256x256, .f32⟩
  | .local _ .vmem, ⟨15, _⟩ => ⟨S1x256, .f32⟩
  | .local _ .vmem, ⟨16, _⟩ => ⟨S256x256, .f32⟩
  | .local _ .vmem, ⟨17, _⟩ => ⟨S1x256, .f32⟩
  | .local _ .vmem, ⟨18, _⟩ => ⟨S5000x256, .f32⟩
  | .local _ .vmem, ⟨19, _⟩ => ⟨S5000x256, .f32⟩
  | .local _ .vmem, ⟨20, _⟩ => ⟨S5000x256, .f32⟩
  | .local _ .vmem, ⟨21, _⟩ => ⟨S5000x256, .f32⟩
  | .local _ .vmem, ⟨22, _⟩ => ⟨S5000x256, .f32⟩
  | .local _ .vmem, ⟨23, _⟩ => ⟨S5000x256, .f32⟩
  | .local _ .vmem, ⟨24, _⟩ => ⟨S256x256, .f32⟩
  | .local _ .vmem, ⟨25, _⟩ => ⟨S1x256, .f32⟩
  | .local _ .vmem, ⟨26, _⟩ => ⟨S256x256, .f32⟩
  | .local _ .vmem, ⟨27, _⟩ => ⟨S1x256, .f32⟩
  | .local _ .vmem, ⟨28, _⟩ => ⟨S5000x256, .f32⟩
  | .local _ .vmem, ⟨29, _⟩ => ⟨S5000x256, .f32⟩
  | .local _ .vmem, ⟨30, _⟩ => ⟨S5000x256, .f32⟩
  | .local _ .vmem, ⟨31, _⟩ => ⟨S5000x256, .f32⟩
  | .local _ .vmem, ⟨32, _⟩ => ⟨S5000x256, .f32⟩
  | .local _ .vmem, ⟨33, _⟩ => ⟨S5000x256, .f32⟩
  | .local _ .vmem, ⟨34, _⟩ => ⟨S256x256, .f32⟩
  | .local _ .vmem, ⟨35, _⟩ => ⟨S1x256, .f32⟩
  | .local _ .vmem, ⟨36, _⟩ => ⟨S256x256, .f32⟩
  | .local _ .vmem, ⟨37, _⟩ => ⟨S1x256, .f32⟩
  | .local _ .vmem, ⟨38, _⟩ => ⟨S5000x256, .f32⟩
  | .local _ .vmem, ⟨39, _⟩ => ⟨S5000x256, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_c_1 : Ref sig .tc := ⟨.hbm, 39, rfl⟩
abbrev main_v25 : Ref sig .tc := ⟨.hbm, 40, rfl⟩
abbrev main_v26 : Ref sig .tc := ⟨.hbm, 41, rfl⟩
abbrev main_c_2 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_3 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_c_4 : Ref sig .tc := ⟨.hbm, 63, rfl⟩
abbrev main_v46 : Ref sig .tc := ⟨.hbm, 64, rfl⟩
abbrev main_v47 : Ref sig .tc := ⟨.hbm, 65, rfl⟩
abbrev main_c_5 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_6 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_c_7 : Ref sig .tc := ⟨.hbm, 87, rfl⟩
abbrev main_v67 : Ref sig .tc := ⟨.hbm, 88, rfl⟩
abbrev main_v68 : Ref sig .tc := ⟨.hbm, 89, rfl⟩
abbrev main_c_8 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_cst_9 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_cst_10 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc2_stg6_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg1_1 : Ref sig .tc := ⟨.vmem, 33, rfl⟩
abbrev cc3_stg2_0 : Ref sig .tc := ⟨.vmem, 34, rfl⟩
abbrev cc3_stg3_0 : Ref sig .tc := ⟨.vmem, 35, rfl⟩
abbrev cc3_stg4_0 : Ref sig .tc := ⟨.vmem, 36, rfl⟩
abbrev cc3_stg5_0 : Ref sig .tc := ⟨.vmem, 37, rfl⟩
abbrev cc3_stg6_0 : Ref sig .tc := ⟨.vmem, 38, rfl⟩
abbrev cc3_stg6_1 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem4_0 : DmaSem sig := 26
abbrev cc2_sem5_0 : DmaSem sig := 27
abbrev cc2_sem6_0 : DmaSem sig := 28
abbrev cc2_sem6_1 : DmaSem sig := 29
abbrev cc3_sem0_0 : DmaSem sig := 30
abbrev cc3_sem0_1 : DmaSem sig := 31
abbrev cc3_sem1_0 : DmaSem sig := 32
abbrev cc3_sem1_1 : DmaSem sig := 33
abbrev cc3_sem2_0 : DmaSem sig := 34
abbrev cc3_sem3_0 : DmaSem sig := 35
abbrev cc3_sem4_0 : DmaSem sig := 36
abbrev cc3_sem5_0 : DmaSem sig := 37
abbrev cc3_sem6_0 : DmaSem sig := 38
abbrev cc3_sem6_1 : DmaSem sig := 39

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S256x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S256x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x256 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x256 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S256x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S256x256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x256 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S5000x256 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  shapeCasts_S256_S1x256 : S256.ShapeCasts S1x256
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  inb_S256x256_S256x256_0_0 : ∀ a, (![0, 0] : Fin 2 → Nat) a + S256x256.size a ≤ S256x256.size a
  h_S256x256 : 0 < S256x256.numel
  inb_S5000x256_S5000x256_0_0 : ∀ a, (![0, 0] : Fin 2 → Nat) a + S5000x256.size a ≤ S5000x256.size a
  h_S5000x256 : 0 < S5000x256.numel
  slices_S3x256x256_S1x256x256_0_0_0 : S3x256x256.Slices ![0, 0, 0] S1x256x256
  shapeCasts_S1x256x256_S256x256 : S1x256x256.ShapeCasts S256x256
  slices_S3x256_S1x256_0_0 : S3x256.Slices ![0, 0] S1x256
  shapeCasts_S1x256_S256 : S1x256.ShapeCasts S256
  bcast_S_S50000x256 : S_.BroadcastsInDim S50000x256 (![] : Fin 0 → Fin S50000x256.rank)
  shapeCasts_S5000x256_S5000x256 : S5000x256.ShapeCasts S5000x256
  shapeCasts_S256x256_S256x256 : S256x256.ShapeCasts S256x256
  slices_S3x256x256_S1x256x256_1_0_0 : S3x256x256.Slices ![1, 0, 0] S1x256x256
  slices_S3x256_S1x256_1_0 : S3x256.Slices ![1, 0] S1x256
  slices_S3x256x256_S1x256x256_2_0_0 : S3x256x256.Slices ![2, 0, 0] S1x256x256
  slices_S3x256_S1x256_2_0 : S3x256.Slices ![2, 0] S1x256
  bcast_S_S256x256 : S_.BroadcastsInDim S256x256 (![] : Fin 0 → Fin S256x256.rank)
  bcast_S50000_S50000x1_0 : S50000.BroadcastsInDim S50000x1 (![0] : Fin 1 → Fin S50000x1.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x256_S5000x256_1_0_0_1_n_n_wf : DotDims.WF S5000x128 S128x256 S5000x256 [1] [0] [0] [1] [] []
  dot_S5000x256_S256x256_S5000x256_1_0_0_1_n_n_wf : DotDims.WF S5000x256 S256x256 S5000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  scatter_S256x256_S50000x1_S50000x256_1_0_0_1_wf : ScatterDims.WF S256x256 S50000x1 S50000x256 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .f32 = 32 ∨ (Rect.block (s := S256x256) S256x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x256.size a ≤ S50000x256.size a
  hwx0_6 : ∀ i : grid0.Coords, EltTy.bits .f32 = 32 ∨ (Rect.block (s := S50000x256) S5000x256.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S50000x256.size a
  hwx1_0 : ∀ i : grid1.Coords, EltTy.bits .f32 = 32 ∨ (Rect.block (s := S50000x256) S5000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x256.size a ≤ S50000x256.size a
  hwx1_1 : ∀ i : grid1.Coords, EltTy.bits .f32 = 32 ∨ (Rect.block (s := S50000x256) S5000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .f32 = 32 ∨ (Rect.block (s := S256x256) S256x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x256.size a ≤ S256x256.size a
  hwx1_4 : ∀ i : grid1.Coords, EltTy.bits .f32 = 32 ∨ (Rect.block (s := S256x256) S256x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x256.size a ≤ S1x256.size a
  hwx1_5 : ∀ i : grid1.Coords, EltTy.bits .f32 = 32 ∨ (Rect.block (s := S1x256) S1x256.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x256.size a ≤ S50000x256.size a
  hwx1_6 : ∀ i : grid1.Coords, EltTy.bits .f32 = 32 ∨ (Rect.block (s := S50000x256) S5000x256.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x256.size a ≤ S50000x256.size a
  hwx2_0 : ∀ i : grid2.Coords, EltTy.bits .f32 = 32 ∨ (Rect.block (s := S50000x256) S5000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x256.size a ≤ S50000x256.size a
  hwx2_1 : ∀ i : grid2.Coords, EltTy.bits .f32 = 32 ∨ (Rect.block (s := S50000x256) S5000x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x256.size a ≤ S256x256.size a
  hwx2_2 : ∀ i : grid2.Coords, EltTy.bits .f32 = 32 ∨ (Rect.block (s := S256x256) S256x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x256.size a ≤ S1x256.size a
  hwx2_3 : ∀ i : grid2.Coords, EltTy.bits .f32 = 32 ∨ (Rect.block (s := S1x256) S1x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S256x256.size a ≤ S256x256.size a
  hwx2_4 : ∀ i : grid2.Coords, EltTy.bits .f32 = 32 ∨ (Rect.block (s := S256x256) S256x256.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x256.size a ≤ S1x256.size a
  hwx2_5 : ∀ i : grid2.Coords, EltTy.bits .f32 = 32 ∨ (Rect.block (s := S1x256) S1x256.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x256.size a ≤ S50000x256.size a
  hwx2_6 : ∀ i : grid2.Coords, EltTy.bits .f32 = 32 ∨ (Rect.block (s := S50000x256) S5000x256.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x256.size a ≤ S50000x256.size a
  hwx3_0 : ∀ i : grid3.Coords, EltTy.bits .f32 = 32 ∨ (Rect.block (s := S50000x256) S5000x256.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x256.size a ≤ S50000x256.size a
  hwx3_1 : ∀ i : grid3.Coords, EltTy.bits .f32 = 32 ∨ (Rect.block (s := S50000x256) S5000x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S256x256.size a ≤ S256x256.size a
  hwx3_2 : ∀ i : grid3.Coords, EltTy.bits .f32 = 32 ∨ (Rect.block (s := S256x256) S256x256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x256.size a ≤ S1x256.size a
  hwx3_3 : ∀ i : grid3.Coords, EltTy.bits .f32 = 32 ∨ (Rect.block (s := S1x256) S1x256.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S256x256.size a ≤ S256x256.size a
  hwx3_4 : ∀ i : grid3.Coords, EltTy.bits .f32 = 32 ∨ (Rect.block (s := S256x256) S256x256.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x256.size a ≤ S1x256.size a
  hwx3_5 : ∀ i : grid3.Coords, EltTy.bits .f32 = 32 ∨ (Rect.block (s := S1x256) S1x256.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x256.size a ≤ S50000x256.size a
  hwx3_6 : ∀ i : grid3.Coords, EltTy.bits .f32 = 32 ∨ (Rect.block (s := S50000x256) S5000x256.size (cc3_transform_6 i) (hinb3_6 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def dot_S5000x256_S256x256_S5000x256_1_0_0_1_n_n : DotDims S5000x256 S256x256 S5000x256 where
  lhsContracting := [1]
  rhsContracting := [0]
  lhsNonContracting := [0]
  rhsNonContracting := [1]
  lhsBatch := []
  rhsBatch := []
  wf := dot_S5000x256_S256x256_S5000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def scatter_S256x256_S50000x1_S50000x256_1_0_0_1 : ScatterDims S256x256 S50000x1 S50000x256 where
  updateWindowDims := [1]
  insertedWindowDims := [0]
  scatterDimsToOperandDims := [0]
  indexVectorDim := 1
  wf := scatter_S256x256_S50000x1_S50000x256_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v16) S5000x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v16) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v34) S5000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v18) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v35) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v22) S256x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v36) S1x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v37) S5000x256.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v37) S5000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v55) S5000x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v39) S256x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v56) S1x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v43) S256x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v57) S1x256.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v58) S5000x256.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v58) S5000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v76) S5000x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v60) S256x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v77) S1x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v64) S256x256.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v78) S1x256.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v79) S5000x256.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S128x256 : Shape := ⟨2, ![128, 256]⟩
abbrev S256 : Shape := ⟨1, ![256]⟩
abbrev S256x256 : Shape := ⟨2, ![256, 256]⟩
abbrev S3x256x256 : Shape := ⟨3, ![3, 256, 256]⟩
abbrev S3x256 : Shape := ⟨2, ![3, 256]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000x256 : Shape := ⟨2, ![50000, 256]⟩
abbrev S1x256 : Shape := ⟨2, ![1, 256]⟩
abbrev S1x256x256 : Shape := ⟨3, ![1, 256, 256]⟩
abbrev S800000x256 : Shape := ⟨2, ![800000, 256]⟩
abbrev S50000x1 : Shape := ⟨2, ![50000, 1]⟩

abbrev nBuf : Space → Nat
  | .hbm => 155
  | .vmem => 0
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S128x256, .f32⟩
  | 4 => ⟨S256, .f32⟩
  | 5 => ⟨S256x256, .f32⟩
  | 6 => ⟨S256, .f32⟩
  | 7 => ⟨S3x256x256, .f32⟩
  | 8 => ⟨S3x256, .f32⟩
  | 9 => ⟨S3x256x256, .f32⟩
  | 10 => ⟨S3x256, .f32⟩
  | 11 => ⟨S1x800000, .i32⟩
  | 12 => ⟨S800000, .i32⟩
  | 13 => ⟨S1x800000, .i32⟩
  | 14 => ⟨S800000, .i32⟩
  | 15 => ⟨S_, .i32⟩
  | 16 => ⟨S800000, .i32⟩
  | 17 => ⟨S800000, .i1⟩
  | 18 => ⟨S_, .i32⟩
  | 19 => ⟨S800000, .i32⟩
  | 20 => ⟨S800000, .i32⟩
  | 21 => ⟨S800000, .i32⟩
  | 22 => ⟨S800000x1, .i32⟩
  | 23 => ⟨S800000x128, .f32⟩
  | 24 => ⟨S_, .f32⟩
  | 25 => ⟨S50000x128, .f32⟩
  | 26 => ⟨S800000x1, .i32⟩
  | 27 => ⟨S50000x128, .f32⟩
  | 28 => ⟨S50000x128, .f32⟩
  | 29 => ⟨S50000x256, .f32⟩
  | 30 => ⟨S1x256, .f32⟩
  | 31 => ⟨S50000x256, .f32⟩
  | 32 => ⟨S50000x256, .f32⟩
  | 33 => ⟨S_, .f32⟩
  | 34 => ⟨S50000x256, .f32⟩
  | 35 => ⟨S50000x256, .f32⟩
  | 36 => ⟨S50000x256, .f32⟩
  | 37 => ⟨S1x256, .f32⟩
  | 38 => ⟨S50000x256, .f32⟩
  | 39 => ⟨S50000x256, .f32⟩
  | 40 => ⟨S_, .f32⟩
  | 41 => ⟨S50000x256, .f32⟩
  | 42 => ⟨S50000x256, .f32⟩
  | 43 => ⟨S1x256x256, .f32⟩
  | 44 => ⟨S256x256, .f32⟩
  | 45 => ⟨S1x256, .f32⟩
  | 46 => ⟨S256, .f32⟩
  | 47 => ⟨S1x256x256, .f32⟩
  | 48 => ⟨S256x256, .f32⟩
  | 49 => ⟨S1x256, .f32⟩
  | 50 => ⟨S256, .f32⟩
  | 51 => ⟨S_, .i32⟩
  | 52 => ⟨S800000, .i32⟩
  | 53 => ⟨S800000, .i1⟩
  | 54 => ⟨S_, .i32⟩
  | 55 => ⟨S800000, .i32⟩
  | 56 => ⟨S800000, .i32⟩
  | 57 => ⟨S800000, .i32⟩
  | 58 => ⟨S800000x1, .i32⟩
  | 59 => ⟨S800000x256, .f32⟩
  | 60 => ⟨S_, .f32⟩
  | 61 => ⟨S50000x256, .f32⟩
  | 62 => ⟨S800000x1, .i32⟩
  | 63 => ⟨S50000x256, .f32⟩
  | 64 => ⟨S50000x256, .f32⟩
  | 65 => ⟨S50000x256, .f32⟩
  | 66 => ⟨S1x256, .f32⟩
  | 67 => ⟨S50000x256, .f32⟩
  | 68 => ⟨S50000x256, .f32⟩
  | 69 => ⟨S_, .f32⟩
  | 70 => ⟨S50000x256, .f32⟩
  | 71 => ⟨S50000x256, .f32⟩
  | 72 => ⟨S50000x256, .f32⟩
  | 73 => ⟨S1x256, .f32⟩
  | 74 => ⟨S50000x256, .f32⟩
  | 75 => ⟨S50000x256, .f32⟩
  | 76 => ⟨S_, .f32⟩
  | 77 => ⟨S50000x256, .f32⟩
  | 78 => ⟨S50000x256, .f32⟩
  | 79 => ⟨S1x256x256, .f32⟩
  | 80 => ⟨S256x256, .f32⟩
  | 81 => ⟨S1x256, .f32⟩
  | 82 => ⟨S256, .f32⟩
  | 83 => ⟨S1x256x256, .f32⟩
  | 84 => ⟨S256x256, .f32⟩
  | 85 => ⟨S1x256, .f32⟩
  | 86 => ⟨S256, .f32⟩
  | 87 => ⟨S_, .i32⟩
  | 88 => ⟨S800000, .i32⟩
  | 89 => ⟨S800000, .i1⟩
  | 90 => ⟨S_, .i32⟩
  | 91 => ⟨S800000, .i32⟩
  | 92 => ⟨S800000, .i32⟩
  | 93 => ⟨S800000, .i32⟩
  | 94 => ⟨S800000x1, .i32⟩
  | 95 => ⟨S800000x256, .f32⟩
  | 96 => ⟨S_, .f32⟩
  | 97 => ⟨S50000x256, .f32⟩
  | 98 => ⟨S800000x1, .i32⟩
  | 99 => ⟨S50000x256, .f32⟩
  | 100 => ⟨S50000x256, .f32⟩
  | 101 => ⟨S50000x256, .f32⟩
  | 102 => ⟨S1x256, .f32⟩
  | 103 => ⟨S50000x256, .f32⟩
  | 104 => ⟨S50000x256, .f32⟩
  | 105 => ⟨S_, .f32⟩
  | 106 => ⟨S50000x256, .f32⟩
  | 107 => ⟨S50000x256, .f32⟩
  | 108 => ⟨S50000x256, .f32⟩
  | 109 => ⟨S1x256, .f32⟩
  | 110 => ⟨S50000x256, .f32⟩
  | 111 => ⟨S50000x256, .f32⟩
  | 112 => ⟨S_, .f32⟩
  | 113 => ⟨S50000x256, .f32⟩
  | 114 => ⟨S50000x256, .f32⟩
  | 115 => ⟨S1x256x256, .f32⟩
  | 116 => ⟨S256x256, .f32⟩
  | 117 => ⟨S1x256, .f32⟩
  | 118 => ⟨S256, .f32⟩
  | 119 => ⟨S1x256x256, .f32⟩
  | 120 => ⟨S256x256, .f32⟩
  | 121 => ⟨S1x256, .f32⟩
  | 122 => ⟨S256, .f32⟩
  | 123 => ⟨S_, .i32⟩
  | 124 => ⟨S800000, .i32⟩
  | 125 => ⟨S800000, .i1⟩
  | 126 => ⟨S_, .i32⟩
  | 127 => ⟨S800000, .i32⟩
  | _ => ⟨S50000x128, .f32⟩

abbrev hbmTy0_1 (i : Nat) : BufTy := match i % 128 with
  | 0 => ⟨S800000, .i32⟩
  | 1 => ⟨S800000, .i32⟩
  | 2 => ⟨S800000x1, .i32⟩
  | 3 => ⟨S800000x256, .f32⟩
  | 4 => ⟨S_, .f32⟩
  | 5 => ⟨S50000x256, .f32⟩
  | 6 => ⟨S800000x1, .i32⟩
  | 7 => ⟨S50000x256, .f32⟩
  | 8 => ⟨S50000x256, .f32⟩
  | 9 => ⟨S50000x256, .f32⟩
  | 10 => ⟨S1x256, .f32⟩
  | 11 => ⟨S50000x256, .f32⟩
  | 12 => ⟨S50000x256, .f32⟩
  | 13 => ⟨S_, .f32⟩
  | 14 => ⟨S50000x256, .f32⟩
  | 15 => ⟨S50000x256, .f32⟩
  | 16 => ⟨S50000x256, .f32⟩
  | 17 => ⟨S1x256, .f32⟩
  | 18 => ⟨S50000x256, .f32⟩
  | 19 => ⟨S50000x256, .f32⟩
  | 20 => ⟨S_, .f32⟩
  | 21 => ⟨S50000x256, .f32⟩
  | 22 => ⟨S50000x256, .f32⟩
  | 23 => ⟨S_, .f32⟩
  | 24 => ⟨S256x256, .f32⟩
  | 25 => ⟨S50000x1, .i32⟩
  | 26 => ⟨S256x256, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_call0_cst : Ref sig .tc := ⟨.hbm, 33, rfl⟩
abbrev main_call0_v0 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_call1_cst : Ref sig .tc := ⟨.hbm, 40, rfl⟩
abbrev main_call1_v0 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_c_1 : Ref sig .tc := ⟨.hbm, 51, rfl⟩
abbrev main_v33 : Ref sig .tc := ⟨.hbm, 52, rfl⟩
abbrev main_v34 : Ref sig .tc := ⟨.hbm, 53, rfl⟩
abbrev main_c_2 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_3 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_call2_cst : Ref sig .tc := ⟨.hbm, 69, rfl⟩
abbrev main_call2_v0 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_call3_cst : Ref sig .tc := ⟨.hbm, 76, rfl⟩
abbrev main_call3_v0 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_c_4 : Ref sig .tc := ⟨.hbm, 87, rfl⟩
abbrev main_v62 : Ref sig .tc := ⟨.hbm, 88, rfl⟩
abbrev main_v63 : Ref sig .tc := ⟨.hbm, 89, rfl⟩
abbrev main_c_5 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_cst_6 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_call4_cst : Ref sig .tc := ⟨.hbm, 105, rfl⟩
abbrev main_call4_v0 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_call5_cst : Ref sig .tc := ⟨.hbm, 112, rfl⟩
abbrev main_call5_v0 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_c_7 : Ref sig .tc := ⟨.hbm, 123, rfl⟩
abbrev main_v91 : Ref sig .tc := ⟨.hbm, 124, rfl⟩
abbrev main_v92 : Ref sig .tc := ⟨.hbm, 125, rfl⟩
abbrev main_c_8 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_cst_9 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_call6_cst : Ref sig .tc := ⟨.hbm, 141, rfl⟩
abbrev main_call6_v0 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_call7_cst : Ref sig .tc := ⟨.hbm, 148, rfl⟩
abbrev main_call7_v0 : Ref sig .tc := ⟨.hbm, 149, rfl⟩
abbrev main_v111 : Ref sig .tc := ⟨.hbm, 150, rfl⟩
abbrev main_cst_10 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  slices_S3x256x256_S1x256x256_0_0_0 : S3x256x256.Slices ![0, 0, 0] S1x256x256
  shapeCasts_S1x256x256_S256x256 : S1x256x256.ShapeCasts S256x256
  slices_S3x256_S1x256_0_0 : S3x256.Slices ![0, 0] S1x256
  shapeCasts_S1x256_S256 : S1x256.ShapeCasts S256
  slices_S3x256x256_S1x256x256_1_0_0 : S3x256x256.Slices ![1, 0, 0] S1x256x256
  slices_S3x256_S1x256_1_0 : S3x256.Slices ![1, 0] S1x256
  slices_S3x256x256_S1x256x256_2_0_0 : S3x256x256.Slices ![2, 0, 0] S1x256x256
  slices_S3x256_S1x256_2_0 : S3x256.Slices ![2, 0] S1x256
  bcast_S_S256x256 : S_.BroadcastsInDim S256x256 (![] : Fin 0 → Fin S256x256.rank)
  bcast_S50000_S50000x1_0 : S50000.BroadcastsInDim S50000x1 (![0] : Fin 1 → Fin S50000x1.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x256_S50000x256_1_0_0_1_n_n_wf : DotDims.WF S50000x128 S128x256 S50000x256 [1] [0] [0] [1] [] []
  dot_S50000x256_S256x256_S50000x256_1_0_0_1_n_n_wf : DotDims.WF S50000x256 S256x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  scatter_S256x256_S50000x1_S50000x256_1_0_0_1_wf : ScatterDims.WF S256x256 S50000x1 S50000x256 [1] [0] [0] 1

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def scatter_S256x256_S50000x1_S50000x256_1_0_0_1 : ScatterDims S256x256 S50000x1 S50000x256 where
  updateWindowDims := [1]
  insertedWindowDims := [0]
  scatterDimsToOperandDims := [0]
  indexVectorDim := 1
  wf := scatter_S256x256_S50000x1_S50000x256_1_0_0_1_wf

class Facts : Prop extends Facts₀ where

variable [Facts]
-- ==== Proof.GinSpec.lean ====
/-
  The graph network both programs compute, written once as a composition of whole-array operations.

  A layer takes node features `h` (one row per node), sums over every edge (j → i) the row `h[j]` into row `i`
  (`agg`: a gather of the source rows followed by a scatter-add at the destination rows), and sends
  `z = h + agg` through two dense maps `relu (z · w + b)`. Four layers are composed (the first from 128 to 256
  features, the others 256 to 256 with the weights of slab 0, 1, 2 of the stacked parameters), and the rows of the
  last layer are summed per graph (`pool`: a scatter-add at each node's graph number).
-/
import proofs.«144491_j55198919688274_1_alg».proof.Proof.Gen.ReferenceIdeal
import Idealize.ShloMosaic.PureOps.Ideal

noncomputable section

namespace Cert.Gin

open Idealize.ShloMosaic Idealize.ShloMosaic.TcCoe Cert.ReferenceIdeal Cert.ReferenceIdeal.Gen

variable {F : FTy → Type} [FloatOps F]

/-- The all-zero 50000×256 array. -/
def zeros256 : (⟨S50000x256, .f32⟩ : BufTy).Contents (Elt F) :=
  broadcastInDim S50000x256 ![] bcast_S_S50000x256 (constant S_ .f32 0x00000000#32)

/-- A bias vector repeated on every row. -/
def biasRows (b : (⟨S256, .f32⟩ : BufTy).Contents (Elt F)) : (⟨S50000x256, .f32⟩ : BufTy).Contents (Elt F) :=
  broadcastInDim S50000x256 ![0, 1] bcast_S1x256_S50000x256_0_1 (broadcastInDim S1x256 ![1] bcast_S256_S1x256_1 b)

/-- `relu (z · w + b)` from 128 to 256 features. -/
def dense128 (z : (⟨S50000x128, .f32⟩ : BufTy).Contents (Elt F)) (w : (⟨S128x256, .f32⟩ : BufTy).Contents (Elt F))
    (b : (⟨S256, .f32⟩ : BufTy).Contents (Elt F)) : (⟨S50000x256, .f32⟩ : BufTy).Contents (Elt F) :=
  maximumf (addf (Host.dotGeneral dot_S50000x128_S128x256_S50000x256_1_0_0_1_n_n none z w) (biasRows b)) zeros256

/-- `relu (z · w + b)` from 256 to 256 features. -/
def dense256 (z : (⟨S50000x256, .f32⟩ : BufTy).Contents (Elt F)) (w : (⟨S256x256, .f32⟩ : BufTy).Contents (Elt F))
    (b : (⟨S256, .f32⟩ : BufTy).Contents (Elt F)) : (⟨S50000x256, .f32⟩ : BufTy).Contents (Elt F) :=
  maximumf (addf (Host.dotGeneral dot_S50000x256_S256x256_S50000x256_1_0_0_1_n_n none z w) (biasRows b)) zeros256

/-- The two dense maps of the first layer applied to `h + a`. -/
def mlp128 (h a : (⟨S50000x128, .f32⟩ : BufTy).Contents (Elt F)) (w1 : (⟨S128x256, .f32⟩ : BufTy).Contents (Elt F))
    (b1 : (⟨S256, .f32⟩ : BufTy).Contents (Elt F)) (w2 : (⟨S256x256, .f32⟩ : BufTy).Contents (Elt F))
    (b2 : (⟨S256, .f32⟩ : BufTy).Contents (Elt F)) : (⟨S50000x256, .f32⟩ : BufTy).Contents (Elt F) :=
  dense256 (dense128 (addf h a) w1 b1) w2 b2

/-- The two dense maps of a later layer applied to `h + a`. -/
def mlp256 (h a : (⟨S50000x256, .f32⟩ : BufTy).Contents (Elt F)) (w1 : (⟨S256x256, .f32⟩ : BufTy).Contents (Elt F))
    (b1 : (⟨S256, .f32⟩ : BufTy).Contents (Elt F)) (w2 : (⟨S256x256, .f32⟩ : BufTy).Contents (Elt F))
    (b2 : (⟨S256, .f32⟩ : BufTy).Contents (Elt F)) : (⟨S50000x256, .f32⟩ : BufTy).Contents (Elt F) :=
  dense256 (dense256 (addf h a) w1 b1) w2 b2

/-- The source node of every edge, as gather indices (a negative number counts from the end). -/
def srcIdx (e : (⟨S2x800000, .i32⟩ : BufTy).Contents (Elt F)) : (⟨S800000x1, .i32⟩ : BufTy).Contents (Elt F) :=
  broadcastInDim S800000x1 ![0] bcast_S800000_S800000x1_0 (select (cmpi .slt (shapeCast _ (extractStridedSlice S1x800000 ![0, 0] e slices_S2x800000_S1x800000_0_0) shapeCasts_S1x800000_S800000) (broadcastInDim S800000 ![] bcast_S_S800000 (constantI S_ 32 0#32))) (addi (shapeCast _ (extractStridedSlice S1x800000 ![0, 0] e slices_S2x800000_S1x800000_0_0) shapeCasts_S1x800000_S800000) (broadcastInDim S800000 ![] bcast_S_S800000 (constantI S_ 32 50000#32))) (shapeCast _ (extractStridedSlice S1x800000 ![0, 0] e slices_S2x800000_S1x800000_0_0) shapeCasts_S1x800000_S800000))

/-- The destination node of every edge, as scatter indices. -/
def dstIdx (e : (⟨S2x800000, .i32⟩ : BufTy).Contents (Elt F)) : (⟨S800000x1, .i32⟩ : BufTy).Contents (Elt F) :=
  broadcastInDim S800000x1 ![0] bcast_S800000_S800000x1_0 (shapeCast _ (extractStridedSlice S1x800000 ![1, 0] e slices_S2x800000_S1x800000_1_0) shapeCasts_S1x800000_S800000)

/-- Neighbour sums of 128-feature rows. -/
def agg128 (e : (⟨S2x800000, .i32⟩ : BufTy).Contents (Elt F)) (h : (⟨S50000x128, .f32⟩ : BufTy).Contents (Elt F)) :
    (⟨S50000x128, .f32⟩ : BufTy).Contents (Elt F) :=
  Host.scatterAdd scatter_S50000x128_S800000x1_S800000x128_1_0_0_1 (broadcastInDim S50000x128 ![] bcast_S_S50000x128 (constant S_ .f32 0x00000000#32)) (dstIdx e) (Host.gather gather_S50000x128_S800000x1_S800000x128_1_0_n_n_0_1_1128 h (srcIdx e))

/-- Neighbour sums of 256-feature rows. -/
def agg256 (e : (⟨S2x800000, .i32⟩ : BufTy).Contents (Elt F)) (h : (⟨S50000x256, .f32⟩ : BufTy).Contents (Elt F)) :
    (⟨S50000x256, .f32⟩ : BufTy).Contents (Elt F) :=
  Host.scatterAdd scatter_S50000x256_S800000x1_S800000x256_1_0_0_1 zeros256 (dstIdx e) (Host.gather gather_S50000x256_S800000x1_S800000x256_1_0_n_n_0_1_1256 h (srcIdx e))

/-- Slab 0, 1, 2 of a stack of three 256×256 matrices. -/
def mat0 (w : (⟨S3x256x256, .f32⟩ : BufTy).Contents (Elt F)) : (⟨S256x256, .f32⟩ : BufTy).Contents (Elt F) :=
  shapeCast _ (extractStridedSlice S1x256x256 ![0, 0, 0] w slices_S3x256x256_S1x256x256_0_0_0) shapeCasts_S1x256x256_S256x256
def mat1 (w : (⟨S3x256x256, .f32⟩ : BufTy).Contents (Elt F)) : (⟨S256x256, .f32⟩ : BufTy).Contents (Elt F) :=
  shapeCast _ (extractStridedSlice S1x256x256 ![1, 0, 0] w slices_S3x256x256_S1x256x256_1_0_0) shapeCasts_S1x256x256_S256x256
def mat2 (w : (⟨S3x256x256, .f32⟩ : BufTy).Contents (Elt F)) : (⟨S256x256, .f32⟩ : BufTy).Contents (Elt F) :=
  shapeCast _ (extractStridedSlice S1x256x256 ![2, 0, 0] w slices_S3x256x256_S1x256x256_2_0_0) shapeCasts_S1x256x256_S256x256

/-- Row 0, 1, 2 of a stack of three bias vectors. -/
def vec0 (b : (⟨S3x256, .f32⟩ : BufTy).Contents (Elt F)) : (⟨S256, .f32⟩ : BufTy).Contents (Elt F) :=
  shapeCast _ (extractStridedSlice S1x256 ![0, 0] b slices_S3x256_S1x256_0_0) shapeCasts_S1x256_S256
def vec1 (b : (⟨S3x256, .f32⟩ : BufTy).Contents (Elt F)) : (⟨S256, .f32⟩ : BufTy).Contents (Elt F) :=
  shapeCast _ (extractStridedSlice S1x256 ![1, 0] b slices_S3x256_S1x256_1_0) shapeCasts_S1x256_S256
def vec2 (b : (⟨S3x256, .f32⟩ : BufTy).Contents (Elt F)) : (⟨S256, .f32⟩ : BufTy).Contents (Elt F) :=
  shapeCast _ (extractStridedSlice S1x256 ![2, 0] b slices_S3x256_S1x256_2_0) shapeCasts_S1x256_S256

/-- The first layer. -/
def layer0 (e : (⟨S2x800000, .i32⟩ : BufTy).Contents (Elt F)) (h : (⟨S50000x128, .f32⟩ : BufTy).Contents (Elt F))
    (w1 : (⟨S128x256, .f32⟩ : BufTy).Contents (Elt F)) (b1 : (⟨S256, .f32⟩ : BufTy).Contents (Elt F))
    (w2 : (⟨S256x256, .f32⟩ : BufTy).Contents (Elt F)) (b2 : (⟨S256, .f32⟩ : BufTy).Contents (Elt F)) :
    (⟨S50000x256, .f32⟩ : BufTy).Contents (Elt F) :=
  mlp128 h (agg128 e h) w1 b1 w2 b2

/-- A later layer. -/
def layer (e : (⟨S2x800000, .i32⟩ : BufTy).Contents (Elt F)) (h : (⟨S50000x256, .f32⟩ : BufTy).Contents (Elt F))
    (w1 : (⟨S256x256, .f32⟩ : BufTy).Contents (Elt F)) (b1 : (⟨S256, .f32⟩ : BufTy).Contents (Elt F))
    (w2 : (⟨S256x256, .f32⟩ : BufTy).Contents (Elt F)) (b2 : (⟨S256, .f32⟩ : BufTy).Contents (Elt F)) :
    (⟨S50000x256, .f32⟩ : BufTy).Contents (Elt F) :=
  mlp256 h (agg256 e h) w1 b1 w2 b2

/-- The per-graph sums of node rows. -/
def pool (g : (⟨S50000, .i32⟩ : BufTy).Contents (Elt F)) (h : (⟨S50000x256, .f32⟩ : BufTy).Contents (Elt F)) :
    (⟨S256x256, .f32⟩ : BufTy).Contents (Elt F) :=
  Host.scatterAdd scatter_S256x256_S50000x1_S50000x256_1_0_0_1 (broadcastInDim S256x256 ![] bcast_S_S256x256 (constant S_ .f32 0x00000000#32)) (broadcastInDim S50000x1 ![0] bcast_S50000_S50000x1_0 g) h

/-- The whole network. -/
def gin (x : (⟨S50000x128, .f32⟩ : BufTy).Contents (Elt F)) (e : (⟨S2x800000, .i32⟩ : BufTy).Contents (Elt F))
    (g : (⟨S50000, .i32⟩ : BufTy).Contents (Elt F))
    (w10 : (⟨S128x256, .f32⟩ : BufTy).Contents (Elt F)) (b10 : (⟨S256, .f32⟩ : BufTy).Contents (Elt F))
    (w20 : (⟨S256x256, .f32⟩ : BufTy).Contents (Elt F)) (b20 : (⟨S256, .f32⟩ : BufTy).Contents (Elt F))
    (w1s : (⟨S3x256x256, .f32⟩ : BufTy).Contents (Elt F)) (b1s : (⟨S3x256, .f32⟩ : BufTy).Contents (Elt F))
    (w2s : (⟨S3x256x256, .f32⟩ : BufTy).Contents (Elt F)) (b2s : (⟨S3x256, .f32⟩ : BufTy).Contents (Elt F)) :
    (⟨S256x256, .f32⟩ : BufTy).Contents (Elt F) :=
  pool g (layer e (layer e (layer e (layer0 e x w10 b10 w20 b20)
    (mat0 w1s) (vec0 b1s) (mat0 w2s) (vec0 b2s))
    (mat1 w1s) (vec1 b1s) (mat1 w2s) (vec1 b2s))
    (mat2 w1s) (vec2 b1s) (mat2 w2s) (vec2 b2s))

end Cert.Gin

end
-- ==== Proof.RefNet.lean ====
/-
  The reference program's result is the network of `Cert.Gin.gin` applied to its arguments: the program's composed
  term, with the layers it repeats folded into the named maps.
-/
import proofs.«144491_j55198919688274_1_alg».proof.Proof.GinSpec
import proofs.«144491_j55198919688274_1_alg».proof.Proof.Gen.ReferenceIdeal.Run

noncomputable section

namespace Cert.Gin

open Idealize.ShloMosaic Idealize.ShloMosaic.TcCoe Idealize.SL.Sem Cert.ReferenceIdeal Cert.ReferenceIdeal.Gen

variable {F : FTy → Type} [FloatOps F]

set_option maxRecDepth 65536 in
/-- The composed term of the reference's operations is the four layers and the pooling. -/
theorem ref_result (m : (ℓ : Loc nD τ sig) → Buf (Elt F) ℓ) (c : Dev nD) :
    Cert.ReferenceIdeal.Value.res_main_v114 (F := F) m c
      = gin (F := F) (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9))
          (m ((c.tc : Thread nD τ).loc main_arg10)) := by
  unfold Cert.ReferenceIdeal.Value.res_main_v114
  rfl

end Cert.Gin

end
-- ==== Proof.FoldEnv.lean ====
/-
  What the buffers that several segments of the kernel program read hold at every segment boundary.

  The program is a chain of nine segments: a stretch of host operations, then four times a kernel region followed by
  a stretch of host operations. The edge sources and destinations (two rows of the edge array, computed once by the
  first stretch) and the arguments read by later stretches are written by no later segment: a host stretch leaves a
  buffer it does not write as it was, and a region changes only its own windows' arrays. So at every boundary they
  hold what the first stretch left, or the launch contents.
-/
import proofs.«144491_j55198919688274_1_alg».proof.Proof.Gen.KernelIdeal.Frame

set_option maxRecDepth 16384

noncomputable section

namespace Cert.KernelIdeal.Net

open Idealize.ShloMosaic Idealize.ShloMosaic.TcCoe Idealize.ShloMosaic.Tactic Idealize.SL.Sem Idealize.ShloMosaic.StableHlo
open Cert.KernelIdeal Cert.KernelIdeal.Gen

variable {F : FTy → Type} [FloatOps F]
variable (m : (ℓ : Loc nD τ sig) → Buf (Elt F) ℓ) (ρ : Dev nD → PrngReg)

/-- A buffer that no operation of a stretch writes: each operation's written buffer is another one. -/
macro "keeps_host " ops:ident : tactic => `(tactic| (
  refine StableHlo.after_of_forall_not_mem _ _ (List.forall_iff_forall_mem.mp ?_)
  simp only [$ops:ident, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)))

/-- Row 0 of the edge array: the source node of every edge. -/
def srcVec (e : (⟨S2x800000, .i32⟩ : BufTy).Contents (Elt F)) : (⟨S800000, .i32⟩ : BufTy).Contents (Elt F) :=
  shapeCast _ (extractStridedSlice S1x800000 ![0, 0] e slices_S2x800000_S1x800000_0_0) shapeCasts_S1x800000_S800000

/-- Row 1 of the edge array: the destination node of every edge. -/
def dstVec (e : (⟨S2x800000, .i32⟩ : BufTy).Contents (Elt F)) : (⟨S800000, .i32⟩ : BufTy).Contents (Elt F) :=
  shapeCast _ (extractStridedSlice S1x800000 ![1, 0] e slices_S2x800000_S1x800000_1_0) shapeCasts_S1x800000_S800000

/-! ## After the first stretch -/

theorem W1_main_v1 (c : Dev nD) : W1 m ρ c (Proc.devRef .tc main_v1) = srcVec (F := F) (m ((c : Thread nD τ).loc main_arg1)) := by
  show StableHlo.after hostOps0 (W0 m ρ c) (Proc.devRef .tc main_v1) = _
  dsimp only [hostOps0]
  after_results_simp
  rfl

theorem W1_main_v3 (c : Dev nD) : W1 m ρ c (Proc.devRef .tc main_v3) = dstVec (F := F) (m ((c : Thread nD τ).loc main_arg1)) := by
  show StableHlo.after hostOps0 (W0 m ρ c) (Proc.devRef .tc main_v3) = _
  dsimp only [hostOps0]
  after_results_simp
  rfl

theorem W1_main_arg2 (c : Dev nD) : W1 m ρ c (Proc.devRef .tc main_arg2) = m ((c : Thread nD τ).loc main_arg2) := by
  show StableHlo.after hostOps0 (W0 m ρ c) (Proc.devRef .tc main_arg2) = W0 m ρ c (Proc.devRef .tc main_arg2)
  keeps_host hostOps0

theorem W1_main_arg7 (c : Dev nD) : W1 m ρ c (Proc.devRef .tc main_arg7) = m ((c : Thread nD τ).loc main_arg7) := by
  show StableHlo.after hostOps0 (W0 m ρ c) (Proc.devRef .tc main_arg7) = W0 m ρ c (Proc.devRef .tc main_arg7)
  keeps_host hostOps0

theorem W1_main_arg8 (c : Dev nD) : W1 m ρ c (Proc.devRef .tc main_arg8) = m ((c : Thread nD τ).loc main_arg8) := by
  show StableHlo.after hostOps0 (W0 m ρ c) (Proc.devRef .tc main_arg8) = W0 m ρ c (Proc.devRef .tc main_arg8)
  keeps_host hostOps0

theorem W1_main_arg9 (c : Dev nD) : W1 m ρ c (Proc.devRef .tc main_arg9) = m ((c : Thread nD τ).loc main_arg9) := by
  show StableHlo.after hostOps0 (W0 m ρ c) (Proc.devRef .tc main_arg9) = W0 m ρ c (Proc.devRef .tc main_arg9)
  keeps_host hostOps0

theorem W1_main_arg10 (c : Dev nD) : W1 m ρ c (Proc.devRef .tc main_arg10) = m ((c : Thread nD τ).loc main_arg10) := by
  show StableHlo.after hostOps0 (W0 m ρ c) (Proc.devRef .tc main_arg10) = W0 m ρ c (Proc.devRef .tc main_arg10)
  keeps_host hostOps0

/-! ## Boundary 2 -/

theorem W2_main_v1 (c : Dev nD) : W2 m ρ c (Proc.devRef .tc main_v1) = srcVec (F := F) (m ((c : Thread nD τ).loc main_arg1)) :=
  (W2_of_ne m ρ c main_v1 (by decide)).trans (W1_main_v1 m ρ c)

theorem W2_main_v3 (c : Dev nD) : W2 m ρ c (Proc.devRef .tc main_v3) = dstVec (F := F) (m ((c : Thread nD τ).loc main_arg1)) :=
  (W2_of_ne m ρ c main_v3 (by decide)).trans (W1_main_v3 m ρ c)

theorem W2_main_arg2 (c : Dev nD) : W2 m ρ c (Proc.devRef .tc main_arg2) = m ((c : Thread nD τ).loc main_arg2) :=
  (W2_of_ne m ρ c main_arg2 (by decide)).trans (W1_main_arg2 m ρ c)

theorem W2_main_arg7 (c : Dev nD) : W2 m ρ c (Proc.devRef .tc main_arg7) = m ((c : Thread nD τ).loc main_arg7) :=
  (W2_of_ne m ρ c main_arg7 (by decide)).trans (W1_main_arg7 m ρ c)

theorem W2_main_arg8 (c : Dev nD) : W2 m ρ c (Proc.devRef .tc main_arg8) = m ((c : Thread nD τ).loc main_arg8) :=
  (W2_of_ne m ρ c main_arg8 (by decide)).trans (W1_main_arg8 m ρ c)

theorem W2_main_arg9 (c : Dev nD) : W2 m ρ c (Proc.devRef .tc main_arg9) = m ((c : Thread nD τ).loc main_arg9) :=
  (W2_of_ne m ρ c main_arg9 (by decide)).trans (W1_main_arg9 m ρ c)

theorem W2_main_arg10 (c : Dev nD) : W2 m ρ c (Proc.devRef .tc main_arg10) = m ((c : Thread nD τ).loc main_arg10) :=
  (W2_of_ne m ρ c main_arg10 (by decide)).trans (W1_main_arg10 m ρ c)

/-! ## Boundary 3 -/

theorem W3_main_v1 (c : Dev nD) : W3 m ρ c (Proc.devRef .tc main_v1) = srcVec (F := F) (m ((c : Thread nD τ).loc main_arg1)) :=
  (show StableHlo.after hostOps1 (W2 m ρ c) (Proc.devRef .tc main_v1) = W2 m ρ c (Proc.devRef .tc main_v1) by
    keeps_host hostOps1).trans (W2_main_v1 m ρ c)

theorem W3_main_v3 (c : Dev nD) : W3 m ρ c (Proc.devRef .tc main_v3) = dstVec (F := F) (m ((c : Thread nD τ).loc main_arg1)) :=
  (show StableHlo.after hostOps1 (W2 m ρ c) (Proc.devRef .tc main_v3) = W2 m ρ c (Proc.devRef .tc main_v3) by
    keeps_host hostOps1).trans (W2_main_v3 m ρ c)

theorem W3_main_arg2 (c : Dev nD) : W3 m ρ c (Proc.devRef .tc main_arg2) = m ((c : Thread nD τ).loc main_arg2) :=
  (show StableHlo.after hostOps1 (W2 m ρ c) (Proc.devRef .tc main_arg2) = W2 m ρ c (Proc.devRef .tc main_arg2) by
    keeps_host hostOps1).trans (W2_main_arg2 m ρ c)

theorem W3_main_arg7 (c : Dev nD) : W3 m ρ c (Proc.devRef .tc main_arg7) = m ((c : Thread nD τ).loc main_arg7) :=
  (show StableHlo.after hostOps1 (W2 m ρ c) (Proc.devRef .tc main_arg7) = W2 m ρ c (Proc.devRef .tc main_arg7) by
    keeps_host hostOps1).trans (W2_main_arg7 m ρ c)

theorem W3_main_arg8 (c : Dev nD) : W3 m ρ c (Proc.devRef .tc main_arg8) = m ((c : Thread nD τ).loc main_arg8) :=
  (show StableHlo.after hostOps1 (W2 m ρ c) (Proc.devRef .tc main_arg8) = W2 m ρ c (Proc.devRef .tc main_arg8) by
    keeps_host hostOps1).trans (W2_main_arg8 m ρ c)

theorem W3_main_arg9 (c : Dev nD) : W3 m ρ c (Proc.devRef .tc main_arg9) = m ((c : Thread nD τ).loc main_arg9) :=
  (show StableHlo.after hostOps1 (W2 m ρ c) (Proc.devRef .tc main_arg9) = W2 m ρ c (Proc.devRef .tc main_arg9) by
    keeps_host hostOps1).trans (W2_main_arg9 m ρ c)

theorem W3_main_arg10 (c : Dev nD) : W3 m ρ c (Proc.devRef .tc main_arg10) = m ((c : Thread nD τ).loc main_arg10) :=
  (show StableHlo.after hostOps1 (W2 m ρ c) (Proc.devRef .tc main_arg10) = W2 m ρ c (Proc.devRef .tc main_arg10) by
    keeps_host hostOps1).trans (W2_main_arg10 m ρ c)

/-! ## Boundary 4 -/

theorem W4_main_v1 (c : Dev nD) : W4 m ρ c (Proc.devRef .tc main_v1) = srcVec (F := F) (m ((c : Thread nD τ).loc main_arg1)) :=
  (W4_of_ne m ρ c main_v1 (by decide)).trans (W3_main_v1 m ρ c)

theorem W4_main_v3 (c : Dev nD) : W4 m ρ c (Proc.devRef .tc main_v3) = dstVec (F := F) (m ((c : Thread nD τ).loc main_arg1)) :=
  (W4_of_ne m ρ c main_v3 (by decide)).trans (W3_main_v3 m ρ c)

theorem W4_main_arg2 (c : Dev nD) : W4 m ρ c (Proc.devRef .tc main_arg2) = m ((c : Thread nD τ).loc main_arg2) :=
  (W4_of_ne m ρ c main_arg2 (by decide)).trans (W3_main_arg2 m ρ c)

theorem W4_main_arg7 (c : Dev nD) : W4 m ρ c (Proc.devRef .tc main_arg7) = m ((c : Thread nD τ).loc main_arg7) :=
  (W4_of_ne m ρ c main_arg7 (by decide)).trans (W3_main_arg7 m ρ c)

theorem W4_main_arg8 (c : Dev nD) : W4 m ρ c (Proc.devRef .tc main_arg8) = m ((c : Thread nD τ).loc main_arg8) :=
  (W4_of_ne m ρ c main_arg8 (by decide)).trans (W3_main_arg8 m ρ c)

theorem W4_main_arg9 (c : Dev nD) : W4 m ρ c (Proc.devRef .tc main_arg9) = m ((c : Thread nD τ).loc main_arg9) :=
  (W4_of_ne m ρ c main_arg9 (by decide)).trans (W3_main_arg9 m ρ c)

theorem W4_main_arg10 (c : Dev nD) : W4 m ρ c (Proc.devRef .tc main_arg10) = m ((c : Thread nD τ).loc main_arg10) :=
  (W4_of_ne m ρ c main_arg10 (by decide)).trans (W3_main_arg10 m ρ c)

/-! ## Boundary 5 -/

theorem W5_main_v1 (c : Dev nD) : W5 m ρ c (Proc.devRef .tc main_v1) = srcVec (F := F) (m ((c : Thread nD τ).loc main_arg1)) :=
  (show StableHlo.after hostOps2 (W4 m ρ c) (Proc.devRef .tc main_v1) = W4 m ρ c (Proc.devRef .tc main_v1) by
    keeps_host hostOps2).trans (W4_main_v1 m ρ c)

theorem W5_main_v3 (c : Dev nD) : W5 m ρ c (Proc.devRef .tc main_v3) = dstVec (F := F) (m ((c : Thread nD τ).loc main_arg1)) :=
  (show StableHlo.after hostOps2 (W4 m ρ c) (Proc.devRef .tc main_v3) = W4 m ρ c (Proc.devRef .tc main_v3) by
    keeps_host hostOps2).trans (W4_main_v3 m ρ c)

theorem W5_main_arg2 (c : Dev nD) : W5 m ρ c (Proc.devRef .tc main_arg2) = m ((c : Thread nD τ).loc main_arg2) :=
  (show StableHlo.after hostOps2 (W4 m ρ c) (Proc.devRef .tc main_arg2) = W4 m ρ c (Proc.devRef .tc main_arg2) by
    keeps_host hostOps2).trans (W4_main_arg2 m ρ c)

theorem W5_main_arg7 (c : Dev nD) : W5 m ρ c (Proc.devRef .tc main_arg7) = m ((c : Thread nD τ).loc main_arg7) :=
  (show StableHlo.after hostOps2 (W4 m ρ c) (Proc.devRef .tc main_arg7) = W4 m ρ c (Proc.devRef .tc main_arg7) by
    keeps_host hostOps2).trans (W4_main_arg7 m ρ c)

theorem W5_main_arg8 (c : Dev nD) : W5 m ρ c (Proc.devRef .tc main_arg8) = m ((c : Thread nD τ).loc main_arg8) :=
  (show StableHlo.after hostOps2 (W4 m ρ c) (Proc.devRef .tc main_arg8) = W4 m ρ c (Proc.devRef .tc main_arg8) by
    keeps_host hostOps2).trans (W4_main_arg8 m ρ c)

theorem W5_main_arg9 (c : Dev nD) : W5 m ρ c (Proc.devRef .tc main_arg9) = m ((c : Thread nD τ).loc main_arg9) :=
  (show StableHlo.after hostOps2 (W4 m ρ c) (Proc.devRef .tc main_arg9) = W4 m ρ c (Proc.devRef .tc main_arg9) by
    keeps_host hostOps2).trans (W4_main_arg9 m ρ c)

theorem W5_main_arg10 (c : Dev nD) : W5 m ρ c (Proc.devRef .tc main_arg10) = m ((c : Thread nD τ).loc main_arg10) :=
  (show StableHlo.after hostOps2 (W4 m ρ c) (Proc.devRef .tc main_arg10) = W4 m ρ c (Proc.devRef .tc main_arg10) by
    keeps_host hostOps2).trans (W4_main_arg10 m ρ c)

/-! ## Boundary 6 -/

theorem W6_main_v1 (c : Dev nD) : W6 m ρ c (Proc.devRef .tc main_v1) = srcVec (F := F) (m ((c : Thread nD τ).loc main_arg1)) :=
  (W6_of_ne m ρ c main_v1 (by decide)).trans (W5_main_v1 m ρ c)

theorem W6_main_v3 (c : Dev nD) : W6 m ρ c (Proc.devRef .tc main_v3) = dstVec (F := F) (m ((c : Thread nD τ).loc main_arg1)) :=
  (W6_of_ne m ρ c main_v3 (by decide)).trans (W5_main_v3 m ρ c)

theorem W6_main_arg2 (c : Dev nD) : W6 m ρ c (Proc.devRef .tc main_arg2) = m ((c : Thread nD τ).loc main_arg2) :=
  (W6_of_ne m ρ c main_arg2 (by decide)).trans (W5_main_arg2 m ρ c)

theorem W6_main_arg7 (c : Dev nD) : W6 m ρ c (Proc.devRef .tc main_arg7) = m ((c : Thread nD τ).loc main_arg7) :=
  (W6_of_ne m ρ c main_arg7 (by decide)).trans (W5_main_arg7 m ρ c)

theorem W6_main_arg8 (c : Dev nD) : W6 m ρ c (Proc.devRef .tc main_arg8) = m ((c : Thread nD τ).loc main_arg8) :=
  (W6_of_ne m ρ c main_arg8 (by decide)).trans (W5_main_arg8 m ρ c)

theorem W6_main_arg9 (c : Dev nD) : W6 m ρ c (Proc.devRef .tc main_arg9) = m ((c : Thread nD τ).loc main_arg9) :=
  (W6_of_ne m ρ c main_arg9 (by decide)).trans (W5_main_arg9 m ρ c)

theorem W6_main_arg10 (c : Dev nD) : W6 m ρ c (Proc.devRef .tc main_arg10) = m ((c : Thread nD τ).loc main_arg10) :=
  (W6_of_ne m ρ c main_arg10 (by decide)).trans (W5_main_arg10 m ρ c)

/-! ## Boundary 7 -/

theorem W7_main_v1 (c : Dev nD) : W7 m ρ c (Proc.devRef .tc main_v1) = srcVec (F := F) (m ((c : Thread nD τ).loc main_arg1)) :=
  (show StableHlo.after hostOps3 (W6 m ρ c) (Proc.devRef .tc main_v1) = W6 m ρ c (Proc.devRef .tc main_v1) by
    keeps_host hostOps3).trans (W6_main_v1 m ρ c)

theorem W7_main_v3 (c : Dev nD) : W7 m ρ c (Proc.devRef .tc main_v3) = dstVec (F := F) (m ((c : Thread nD τ).loc main_arg1)) :=
  (show StableHlo.after hostOps3 (W6 m ρ c) (Proc.devRef .tc main_v3) = W6 m ρ c (Proc.devRef .tc main_v3) by
    keeps_host hostOps3).trans (W6_main_v3 m ρ c)

theorem W7_main_arg2 (c : Dev nD) : W7 m ρ c (Proc.devRef .tc main_arg2) = m ((c : Thread nD τ).loc main_arg2) :=
  (show StableHlo.after hostOps3 (W6 m ρ c) (Proc.devRef .tc main_arg2) = W6 m ρ c (Proc.devRef .tc main_arg2) by
    keeps_host hostOps3).trans (W6_main_arg2 m ρ c)

theorem W7_main_arg7 (c : Dev nD) : W7 m ρ c (Proc.devRef .tc main_arg7) = m ((c : Thread nD τ).loc main_arg7) :=
  (show StableHlo.after hostOps3 (W6 m ρ c) (Proc.devRef .tc main_arg7) = W6 m ρ c (Proc.devRef .tc main_arg7) by
    keeps_host hostOps3).trans (W6_main_arg7 m ρ c)

theorem W7_main_arg8 (c : Dev nD) : W7 m ρ c (Proc.devRef .tc main_arg8) = m ((c : Thread nD τ).loc main_arg8) :=
  (show StableHlo.after hostOps3 (W6 m ρ c) (Proc.devRef .tc main_arg8) = W6 m ρ c (Proc.devRef .tc main_arg8) by
    keeps_host hostOps3).trans (W6_main_arg8 m ρ c)

theorem W7_main_arg9 (c : Dev nD) : W7 m ρ c (Proc.devRef .tc main_arg9) = m ((c : Thread nD τ).loc main_arg9) :=
  (show StableHlo.after hostOps3 (W6 m ρ c) (Proc.devRef .tc main_arg9) = W6 m ρ c (Proc.devRef .tc main_arg9) by
    keeps_host hostOps3).trans (W6_main_arg9 m ρ c)

theorem W7_main_arg10 (c : Dev nD) : W7 m ρ c (Proc.devRef .tc main_arg10) = m ((c : Thread nD τ).loc main_arg10) :=
  (show StableHlo.after hostOps3 (W6 m ρ c) (Proc.devRef .tc main_arg10) = W6 m ρ c (Proc.devRef .tc main_arg10) by
    keeps_host hostOps3).trans (W6_main_arg10 m ρ c)

/-! ## Boundary 8 -/

theorem W8_main_v1 (c : Dev nD) : W8 m ρ c (Proc.devRef .tc main_v1) = srcVec (F := F) (m ((c : Thread nD τ).loc main_arg1)) :=
  (W8_of_ne m ρ c main_v1 (by decide)).trans (W7_main_v1 m ρ c)

theorem W8_main_v3 (c : Dev nD) : W8 m ρ c (Proc.devRef .tc main_v3) = dstVec (F := F) (m ((c : Thread nD τ).loc main_arg1)) :=
  (W8_of_ne m ρ c main_v3 (by decide)).trans (W7_main_v3 m ρ c)

theorem W8_main_arg2 (c : Dev nD) : W8 m ρ c (Proc.devRef .tc main_arg2) = m ((c : Thread nD τ).loc main_arg2) :=
  (W8_of_ne m ρ c main_arg2 (by decide)).trans (W7_main_arg2 m ρ c)

theorem W8_main_arg7 (c : Dev nD) : W8 m ρ c (Proc.devRef .tc main_arg7) = m ((c : Thread nD τ).loc main_arg7) :=
  (W8_of_ne m ρ c main_arg7 (by decide)).trans (W7_main_arg7 m ρ c)

theorem W8_main_arg8 (c : Dev nD) : W8 m ρ c (Proc.devRef .tc main_arg8) = m ((c : Thread nD τ).loc main_arg8) :=
  (W8_of_ne m ρ c main_arg8 (by decide)).trans (W7_main_arg8 m ρ c)

theorem W8_main_arg9 (c : Dev nD) : W8 m ρ c (Proc.devRef .tc main_arg9) = m ((c : Thread nD τ).loc main_arg9) :=
  (W8_of_ne m ρ c main_arg9 (by decide)).trans (W7_main_arg9 m ρ c)

theorem W8_main_arg10 (c : Dev nD) : W8 m ρ c (Proc.devRef .tc main_arg10) = m ((c : Thread nD τ).loc main_arg10) :=
  (W8_of_ne m ρ c main_arg10 (by decide)).trans (W7_main_arg10 m ρ c)

end Cert.KernelIdeal.Net

end
-- ==== Proof.FoldVals.lean ====
/-
  What each kernel region finds in its windows' arrays, and what the last stretch of host operations returns.

  Before the first region the host operations compute the neighbour sums of the input rows and view the two bias
  vectors as one-row matrices. Before each later region they take slab `k` of the stacked weights and row `k` of the
  stacked biases and compute the neighbour sums of the previous region's output; that output itself is left as the
  region wrote it. After the last region the rows are summed per graph. Each is read off the fold of the stretch's
  operations, the edge rows and the arguments taken from the boundary facts.
-/
import proofs.«144491_j55198919688274_1_alg».proof.Proof.FoldEnv
import proofs.«144491_j55198919688274_1_alg».proof.Proof.GinSpec
import Idealize.ShloMosaic.Lib.ValueIdx
import Idealize.ShloMosaic.Lib.Pipeline.Value
import Idealize.ShloMosaic.Lib.ValueLayout

set_option maxRecDepth 16384

noncomputable section

namespace Cert.KernelIdeal.Net

open Idealize.ShloMosaic Idealize.ShloMosaic.TcCoe Idealize.ShloMosaic.Tactic Idealize.SL.Sem Idealize.ShloMosaic.StableHlo
open Cert.KernelIdeal Cert.KernelIdeal.Gen Idealize.ShloMosaic.ValueIdx

variable {F : FTy → Type} [FloatOps F]
variable (m : (ℓ : Loc nD τ sig) → Buf (Elt F) ℓ) (ρ : Dev nD → PrngReg)

/-! ## Region 0's windows -/

theorem W1_main_arg0 (c : Dev nD) : W1 m ρ c (Proc.devRef .tc main_arg0) = m ((c : Thread nD τ).loc main_arg0) := by
  show StableHlo.after hostOps0 (W0 m ρ c) (Proc.devRef .tc main_arg0) = W0 m ρ c (Proc.devRef .tc main_arg0)
  keeps_host hostOps0

theorem W1_main_arg3 (c : Dev nD) : W1 m ρ c (Proc.devRef .tc main_arg3) = m ((c : Thread nD τ).loc main_arg3) := by
  show StableHlo.after hostOps0 (W0 m ρ c) (Proc.devRef .tc main_arg3) = W0 m ρ c (Proc.devRef .tc main_arg3)
  keeps_host hostOps0

theorem W1_main_arg5 (c : Dev nD) : W1 m ρ c (Proc.devRef .tc main_arg5) = m ((c : Thread nD τ).loc main_arg5) := by
  show StableHlo.after hostOps0 (W0 m ρ c) (Proc.devRef .tc main_arg5) = W0 m ρ c (Proc.devRef .tc main_arg5)
  keeps_host hostOps0

set_option maxHeartbeats 4000000 in
/-- The neighbour sums of the input rows. -/
theorem W1_main_v13 (c : Dev nD) : W1 m ρ c (Proc.devRef .tc main_v13) = Cert.Gin.agg128 (F := F) (m ((c : Thread nD τ).loc main_arg1)) (m ((c : Thread nD τ).loc main_arg0)) := by
  show StableHlo.after hostOps0 (W0 m ρ c) (Proc.devRef .tc main_v13) = _
  dsimp only [hostOps0]
  after_results_simp
  rfl

/-- The first bias as a one-row matrix. -/
theorem W1_main_v14 (c : Dev nD) (q : Fin 256) :
    (W1 m ρ c (Proc.devRef .tc main_v14) : (⟨S1x256, .f32⟩ : BufTy).Contents (Elt F)) (ix2 (0 : Fin 1) q) = (m ((c : Thread nD τ).loc main_arg4)) (ix1 q) := by
  show StableHlo.after hostOps0 (W0 m ρ c) (Proc.devRef .tc main_v14) (ix2 (0 : Fin 1) q) = _
  dsimp only [hostOps0]
  after_results_simp
  exact shapeCast_a_1a_apply _ _ 0 q

/-- The second bias as a one-row matrix. -/
theorem W1_main_v15 (c : Dev nD) (q : Fin 256) :
    (W1 m ρ c (Proc.devRef .tc main_v15) : (⟨S1x256, .f32⟩ : BufTy).Contents (Elt F)) (ix2 (0 : Fin 1) q) = (m ((c : Thread nD τ).loc main_arg6)) (ix1 q) := by
  show StableHlo.after hostOps0 (W0 m ρ c) (Proc.devRef .tc main_v15) (ix2 (0 : Fin 1) q) = _
  dsimp only [hostOps0]
  after_results_simp
  exact shapeCast_a_1a_apply _ _ 0 q

/-! ## Region 1's windows -/

/-- The previous region's output is left as written. -/
theorem W3_main_v16 (c : Dev nD) : W3 m ρ c (Proc.devRef .tc main_v16) = W2 m ρ c (Proc.devRef .tc main_v16) := by
  show StableHlo.after hostOps1 (W2 m ρ c) (Proc.devRef .tc main_v16) = W2 m ρ c (Proc.devRef .tc main_v16)
  keeps_host hostOps1

set_option maxHeartbeats 4000000 in
/-- The neighbour sums of the previous region's output. -/
theorem W3_main_v34 (c : Dev nD) : W3 m ρ c (Proc.devRef .tc main_v34)
    = Cert.Gin.agg256 (F := F) (m ((c : Thread nD τ).loc main_arg1)) (W2 m ρ c (Proc.devRef .tc main_v16)) := by
  show StableHlo.after hostOps1 (W2 m ρ c) (Proc.devRef .tc main_v34) = _
  dsimp only [hostOps1]
  after_results_simp
  rw [W2_main_v1 m ρ c, W2_main_v3 m ρ c]
  rfl

set_option maxHeartbeats 4000000 in
/-- Slab 0 of the first stacked weights. -/
theorem W3_main_v18 (c : Dev nD) : W3 m ρ c (Proc.devRef .tc main_v18) = Cert.Gin.mat0 (F := F) (m ((c : Thread nD τ).loc main_arg7)) := by
  show StableHlo.after hostOps1 (W2 m ρ c) (Proc.devRef .tc main_v18) = _
  dsimp only [hostOps1]
  after_results_simp
  rw [W2_main_arg7 m ρ c]
  rfl

set_option maxHeartbeats 4000000 in
/-- Slab 0 of the second stacked weights. -/
theorem W3_main_v22 (c : Dev nD) : W3 m ρ c (Proc.devRef .tc main_v22) = Cert.Gin.mat0 (F := F) (m ((c : Thread nD τ).loc main_arg9)) := by
  show StableHlo.after hostOps1 (W2 m ρ c) (Proc.devRef .tc main_v22) = _
  dsimp only [hostOps1]
  after_results_simp
  rw [W2_main_arg9 m ρ c]
  rfl

set_option maxHeartbeats 4000000 in
/-- Row 0 of the first stacked biases, as a one-row matrix. -/
theorem W3_main_v35 (c : Dev nD) (q : Fin 256) :
    (W3 m ρ c (Proc.devRef .tc main_v35) : (⟨S1x256, .f32⟩ : BufTy).Contents (Elt F)) (ix2 (0 : Fin 1) q)
      = Cert.Gin.vec0 (F := F) (m ((c : Thread nD τ).loc main_arg8)) (ix1 q) := by
  show StableHlo.after hostOps1 (W2 m ρ c) (Proc.devRef .tc main_v35) (ix2 (0 : Fin 1) q) = _
  dsimp only [hostOps1]
  after_results_simp
  rw [W2_main_arg8 m ρ c]
  refine (shapeCast_a_1a_apply _ _ 0 q).trans ?_
  rfl

set_option maxHeartbeats 4000000 in
/-- Row 0 of the second stacked biases, as a one-row matrix. -/
theorem W3_main_v36 (c : Dev nD) (q : Fin 256) :
    (W3 m ρ c (Proc.devRef .tc main_v36) : (⟨S1x256, .f32⟩ : BufTy).Contents (Elt F)) (ix2 (0 : Fin 1) q)
      = Cert.Gin.vec0 (F := F) (m ((c : Thread nD τ).loc main_arg10)) (ix1 q) := by
  show StableHlo.after hostOps1 (W2 m ρ c) (Proc.devRef .tc main_v36) (ix2 (0 : Fin 1) q) = _
  dsimp only [hostOps1]
  after_results_simp
  rw [W2_main_arg10 m ρ c]
  refine (shapeCast_a_1a_apply _ _ 0 q).trans ?_
  rfl

/-! ## Region 2's windows -/

/-- The previous region's output is left as written. -/
theorem W5_main_v37 (c : Dev nD) : W5 m ρ c (Proc.devRef .tc main_v37) = W4 m ρ c (Proc.devRef .tc main_v37) := by
  show StableHlo.after hostOps2 (W4 m ρ c) (Proc.devRef .tc main_v37) = W4 m ρ c (Proc.devRef .tc main_v37)
  keeps_host hostOps2

set_option maxHeartbeats 4000000 in
/-- The neighbour sums of the previous region's output. -/
theorem W5_main_v55 (c : Dev nD) : W5 m ρ c (Proc.devRef .tc main_v55)
    = Cert.Gin.agg256 (F := F) (m ((c : Thread nD τ).loc main_arg1)) (W4 m ρ c (Proc.devRef .tc main_v37)) := by
  show StableHlo.after hostOps2 (W4 m ρ c) (Proc.devRef .tc main_v55) = _
  dsimp only [hostOps2]
  after_results_simp
  rw [W4_main_v1 m ρ c, W4_main_v3 m ρ c]
  rfl

set_option maxHeartbeats 4000000 in
/-- Slab 1 of the first stacked weights. -/
theorem W5_main_v39 (c : Dev nD) : W5 m ρ c (Proc.devRef .tc main_v39) = Cert.Gin.mat1 (F := F) (m ((c : Thread nD τ).loc main_arg7)) := by
  show StableHlo.after hostOps2 (W4 m ρ c) (Proc.devRef .tc main_v39) = _
  dsimp only [hostOps2]
  after_results_simp
  rw [W4_main_arg7 m ρ c]
  rfl

set_option maxHeartbeats 4000000 in
/-- Slab 1 of the second stacked weights. -/
theorem W5_main_v43 (c : Dev nD) : W5 m ρ c (Proc.devRef .tc main_v43) = Cert.Gin.mat1 (F := F) (m ((c : Thread nD τ).loc main_arg9)) := by
  show StableHlo.after hostOps2 (W4 m ρ c) (Proc.devRef .tc main_v43) = _
  dsimp only [hostOps2]
  after_results_simp
  rw [W4_main_arg9 m ρ c]
  rfl

set_option maxHeartbeats 4000000 in
/-- Row 1 of the first stacked biases, as a one-row matrix. -/
theorem W5_main_v56 (c : Dev nD) (q : Fin 256) :
    (W5 m ρ c (Proc.devRef .tc main_v56) : (⟨S1x256, .f32⟩ : BufTy).Contents (Elt F)) (ix2 (0 : Fin 1) q)
      = Cert.Gin.vec1 (F := F) (m ((c : Thread nD τ).loc main_arg8)) (ix1 q) := by
  show StableHlo.after hostOps2 (W4 m ρ c) (Proc.devRef .tc main_v56) (ix2 (0 : Fin 1) q) = _
  dsimp only [hostOps2]
  after_results_simp
  rw [W4_main_arg8 m ρ c]
  refine (shapeCast_a_1a_apply _ _ 0 q).trans ?_
  rfl

set_option maxHeartbeats 4000000 in
/-- Row 1 of the second stacked biases, as a one-row matrix. -/
theorem W5_main_v57 (c : Dev nD) (q : Fin 256) :
    (W5 m ρ c (Proc.devRef .tc main_v57) : (⟨S1x256, .f32⟩ : BufTy).Contents (Elt F)) (ix2 (0 : Fin 1) q)
      = Cert.Gin.vec1 (F := F) (m ((c : Thread nD τ).loc main_arg10)) (ix1 q) := by
  show StableHlo.after hostOps2 (W4 m ρ c) (Proc.devRef .tc main_v57) (ix2 (0 : Fin 1) q) = _
  dsimp only [hostOps2]
  after_results_simp
  rw [W4_main_arg10 m ρ c]
  refine (shapeCast_a_1a_apply _ _ 0 q).trans ?_
  rfl

/-! ## Region 3's windows -/

/-- The previous region's output is left as written. -/
theorem W7_main_v58 (c : Dev nD) : W7 m ρ c (Proc.devRef .tc main_v58) = W6 m ρ c (Proc.devRef .tc main_v58) := by
  show StableHlo.after hostOps3 (W6 m ρ c) (Proc.devRef .tc main_v58) = W6 m ρ c (Proc.devRef .tc main_v58)
  keeps_host hostOps3

set_option maxHeartbeats 4000000 in
/-- The neighbour sums of the previous region's output. -/
theorem W7_main_v76 (c : Dev nD) : W7 m ρ c (Proc.devRef .tc main_v76)
    = Cert.Gin.agg256 (F := F) (m ((c : Thread nD τ).loc main_arg1)) (W6 m ρ c (Proc.devRef .tc main_v58)) := by
  show StableHlo.after hostOps3 (W6 m ρ c) (Proc.devRef .tc main_v76) = _
  dsimp only [hostOps3]
  after_results_simp
  rw [W6_main_v1 m ρ c, W6_main_v3 m ρ c]
  rfl

set_option maxHeartbeats 4000000 in
/-- Slab 2 of the first stacked weights. -/
theorem W7_main_v60 (c : Dev nD) : W7 m ρ c (Proc.devRef .tc main_v60) = Cert.Gin.mat2 (F := F) (m ((c : Thread nD τ).loc main_arg7)) := by
  show StableHlo.after hostOps3 (W6 m ρ c) (Proc.devRef .tc main_v60) = _
  dsimp only [hostOps3]
  after_results_simp
  rw [W6_main_arg7 m ρ c]
  rfl

set_option maxHeartbeats 4000000 in
/-- Slab 2 of the second stacked weights. -/
theorem W7_main_v64 (c : Dev nD) : W7 m ρ c (Proc.devRef .tc main_v64) = Cert.Gin.mat2 (F := F) (m ((c : Thread nD τ).loc main_arg9)) := by
  show StableHlo.after hostOps3 (W6 m ρ c) (Proc.devRef .tc main_v64) = _
  dsimp only [hostOps3]
  after_results_simp
  rw [W6_main_arg9 m ρ c]
  rfl

set_option maxHeartbeats 4000000 in
/-- Row 2 of the first stacked biases, as a one-row matrix. -/
theorem W7_main_v77 (c : Dev nD) (q : Fin 256) :
    (W7 m ρ c (Proc.devRef .tc main_v77) : (⟨S1x256, .f32⟩ : BufTy).Contents (Elt F)) (ix2 (0 : Fin 1) q)
      = Cert.Gin.vec2 (F := F) (m ((c : Thread nD τ).loc main_arg8)) (ix1 q) := by
  show StableHlo.after hostOps3 (W6 m ρ c) (Proc.devRef .tc main_v77) (ix2 (0 : Fin 1) q) = _
  dsimp only [hostOps3]
  after_results_simp
  rw [W6_main_arg8 m ρ c]
  refine (shapeCast_a_1a_apply _ _ 0 q).trans ?_
  rfl

set_option maxHeartbeats 4000000 in
/-- Row 2 of the second stacked biases, as a one-row matrix. -/
theorem W7_main_v78 (c : Dev nD) (q : Fin 256) :
    (W7 m ρ c (Proc.devRef .tc main_v78) : (⟨S1x256, .f32⟩ : BufTy).Contents (Elt F)) (ix2 (0 : Fin 1) q)
      = Cert.Gin.vec2 (F := F) (m ((c : Thread nD τ).loc main_arg10)) (ix1 q) := by
  show StableHlo.after hostOps3 (W6 m ρ c) (Proc.devRef .tc main_v78) (ix2 (0 : Fin 1) q) = _
  dsimp only [hostOps3]
  after_results_simp
  rw [W6_main_arg10 m ρ c]
  refine (shapeCast_a_1a_apply _ _ 0 q).trans ?_
  rfl

/-! ## The returned array -/

/-- The rows of the last region's output summed per graph. -/
theorem W9_main_v82 (c : Dev nD) : W9 m ρ c (Proc.devRef .tc main_v82)
    = Cert.Gin.pool (F := F) (m ((c : Thread nD τ).loc main_arg2)) (W8 m ρ c (Proc.devRef .tc main_v79)) := by
  show StableHlo.after hostOps4 (W8 m ρ c) (Proc.devRef .tc main_v82) = _
  dsimp only [hostOps4]
  after_results_simp
  rw [W8_main_arg2 m ρ c]
  rfl

end Cert.KernelIdeal.Net

end
-- ==== Proof.GinPayload.lean ====
/-
  One block of the two-layer perceptron against the whole array, entry by entry.

  The block program computes, on 5000 rows at a time, `relu (relu ((x0 + x1) · w1 + b1) · w2 + b2)`: each matrix product
  accumulated from a zero block, each bias a `[1, 256]` row repeated over the 5000 rows, each `relu` a maximum with a
  block of zeros. The whole-array functions `mlp128` / `mlp256` compute the same on all 50000 rows with `dot_general` and
  `broadcast_in_dim`. Block `t` (of ten) holds rows `5000 t … 5000 t + 4999`.

  Over the extended reals a matrix product read at entry `(p, q)` is the finite sum `∑ k, l (p, k) * r (k, q)`, with no
  rounding and no order of summation left in it, whether it is the block's `tpu.matmul` into zeros or the array's
  `dot_general` (`sum_contr1`, then one lemma per shape). Row `p` of a block product therefore depends on row `p` of the
  left operand only, and that is why the block computation can be compared with the whole one row by row. One dense stage
  `relu (u · w + b)` (`stage128`, `stage256`): if the block `u` agrees with rows `5000 t …` of `U` and the block's bias row
  with the bias vector, then the stage on the block at `(p, q)` and the stage on the array at `(5000 t + p, q)` are both
  `max (∑ k, U (5000 t + p, k) * w (k, q) + b q) 0`, the same zero word on both sides. The two payloads are two such
  stages after an entrywise sum (`pay0_apply`, from 128 features; `pay1_apply`, from 256), the second stage's hypothesis
  being the first stage's conclusion.
-/
import proofs.«144491_j55198919688274_1_alg».proof.Proof.GinSpec
import proofs.«144491_j55198919688274_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.Gin

open Idealize.ShloMosaic Idealize.ShloMosaic.ValueIdx

/-- Row `p` of block `t` is row `5000 t + p` of the array. -/
abbrev rowOf (t : Fin 10) (p : Fin 5000) : Fin 50000 := ⟨5000 * t.val + p.val, by omega⟩

/-! ## A product of two matrices read at an entry -/

/-- A contraction over ONE axis of extent `K`, of a left operand `[M, K]` and a right operand `[K, N]` whose
    operand indices at result entry `(p, q)` and contraction position `k` are `(p, k)` and `(k, q)`: the sum over
    the contraction shape's indices is the sum over `k : Fin K` of `l (p, k) * r (k, q)`. -/
theorem sum_contr1 {M K N : Nat} (d : DotDims ⟨2, ![M, K]⟩ ⟨2, ![K, N]⟩ ⟨2, ![M, N]⟩)
    (hr : d.contr.rank = 1) (hs : d.contr.size ⟨0, by omega⟩ = K)
    (hl0 : ∀ j k, (d.lhsIdx j k 0).val = (j 0).val)
    (hl1 : ∀ j k, (d.lhsIdx j k 1).val = (k ⟨0, by omega⟩).val)
    (hr0 : ∀ j k, (d.rhsIdx j k 0).val = (k ⟨0, by omega⟩).val)
    (hr1 : ∀ j k, (d.rhsIdx j k 1).val = (j 1).val)
    (l : (⟨2, ![M, K]⟩ : Shape).Idx → EReal) (r : (⟨2, ![K, N]⟩ : Shape).Idx → EReal) (p : Fin M) (q : Fin N) :
    ∑ k : d.contr.Idx, l (d.lhsIdx (ix2 p q) k) * r (d.rhsIdx (ix2 p q) k) = ∑ k : Fin K, l (ix2 p k) * r (ix2 k q) := by
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 k q := funext fun a => Fin.ext (by
    match a with
    | ⟨0, _⟩ => exact (hr0 _ _).trans hk
    | ⟨1, _⟩ => exact hr1 _ _)
  rw [el, er]

/-! ## The four dimension-number records: block and whole-array, 128 and 256 contracted features

Each contracts the left operand's axis 1 with the right operand's axis 0 and has no batch axis, so at result entry `j`
and contraction position `k` the left operand is read at `(j 0, k)` and the right one at `(k, j 1)`. -/

/-- The block product `[5000, 128] · [128, 256]`. -/
abbrev kd128 := Cert.KernelIdeal.dot_S5000x128_S128x256_S5000x256_1_0_0_1_n_n
/-- The block product `[5000, 256] · [256, 256]`. -/
abbrev kd256 := Cert.KernelIdeal.dot_S5000x256_S256x256_S5000x256_1_0_0_1_n_n
/-- The whole-array product `[50000, 128] · [128, 256]`. -/
abbrev rd128 := Cert.ReferenceIdeal.dot_S50000x128_S128x256_S50000x256_1_0_0_1_n_n
/-- The whole-array product `[50000, 256] · [256, 256]`. -/
abbrev rd256 := Cert.ReferenceIdeal.dot_S50000x256_S256x256_S50000x256_1_0_0_1_n_n

/-- `kd128`: the left operand's row is the result's row … -/
theorem kd128_l0 (j : Cert.KernelIdeal.S5000x256.Idx) (k : kd128.contr.Idx) : (kd128.lhsIdx j k 0).val = (j 0).val := by
  unfold DotDims.lhsIdx
  rw [dif_neg (show ¬(0 : Fin Cert.KernelIdeal.S5000x128.rank) ∈ kd128.lhsBatch by decide),
    dif_pos (show (0 : Fin Cert.KernelIdeal.S5000x128.rank) ∈ kd128.lhsNonContracting by decide)]
  rfl
/-- … its column the contraction position; -/
theorem kd128_l1 (j : Cert.KernelIdeal.S5000x256.Idx) (k : kd128.contr.Idx) : (kd128.lhsIdx j k 1).val = (k ⟨0, by decide⟩).val :=
  kd128.lhsIdx_val_of_single rfl j k
/-- the right operand's row is the contraction position … -/
theorem kd128_r0 (j : Cert.KernelIdeal.S5000x256.Idx) (k : kd128.contr.Idx) : (kd128.rhsIdx j k 0).val = (k ⟨0, by decide⟩).val :=
  kd128.rhsIdx_val_of_single rfl j k
/-- … and its column the result's column. -/
theorem kd128_r1 (j : Cert.KernelIdeal.S5000x256.Idx) (k : kd128.contr.Idx) : (kd128.rhsIdx j k 1).val = (j 1).val := by
  unfold DotDims.rhsIdx
  rw [dif_neg (show ¬(1 : Fin Cert.KernelIdeal.S128x256.rank) ∈ kd128.rhsBatch by decide),
    dif_pos (show (1 : Fin Cert.KernelIdeal.S128x256.rank) ∈ kd128.rhsNonContracting by decide)]
  rfl

/-- `kd256`: the left operand's row is the result's row … -/
theorem kd256_l0 (j : Cert.KernelIdeal.S5000x256.Idx) (k : kd256.contr.Idx) : (kd256.lhsIdx j k 0).val = (j 0).val := by
  unfold DotDims.lhsIdx
  rw [dif_neg (show ¬(0 : Fin Cert.KernelIdeal.S5000x256.rank) ∈ kd256.lhsBatch by decide),
    dif_pos (show (0 : Fin Cert.KernelIdeal.S5000x256.rank) ∈ kd256.lhsNonContracting by decide)]
  rfl
/-- … its column the contraction position; -/
theorem kd256_l1 (j : Cert.KernelIdeal.S5000x256.Idx) (k : kd256.contr.Idx) : (kd256.lhsIdx j k 1).val = (k ⟨0, by decide⟩).val :=
  kd256.lhsIdx_val_of_single rfl j k
/-- the right operand's row is the contraction position … -/
theorem kd256_r0 (j : Cert.KernelIdeal.S5000x256.Idx) (k : kd256.contr.Idx) : (kd256.rhsIdx j k 0).val = (k ⟨0, by decide⟩).val :=
  kd256.rhsIdx_val_of_single rfl j k
/-- … and its column the result's column. -/
theorem kd256_r1 (j : Cert.KernelIdeal.S5000x256.Idx) (k : kd256.contr.Idx) : (kd256.rhsIdx j k 1).val = (j 1).val := by
  unfold DotDims.rhsIdx
  rw [dif_neg (show ¬(1 : Fin Cert.KernelIdeal.S256x256.rank) ∈ kd256.rhsBatch by decide),
    dif_pos (show (1 : Fin Cert.KernelIdeal.S256x256.rank) ∈ kd256.rhsNonContracting by decide)]
  rfl

/-- `rd128`: the left operand's row is the result's row … -/
theorem rd128_l0 (j : Cert.ReferenceIdeal.S50000x256.Idx) (k : rd128.contr.Idx) : (rd128.lhsIdx j k 0).val = (j 0).val := by
  unfold DotDims.lhsIdx
  rw [dif_neg (show ¬(0 : Fin Cert.ReferenceIdeal.S50000x128.rank) ∈ rd128.lhsBatch by decide),
    dif_pos (show (0 : Fin Cert.ReferenceIdeal.S50000x128.rank) ∈ rd128.lhsNonContracting by decide)]
  rfl
/-- … its column the contraction position; -/
theorem rd128_l1 (j : Cert.ReferenceIdeal.S50000x256.Idx) (k : rd128.contr.Idx) : (rd128.lhsIdx j k 1).val = (k ⟨0, by decide⟩).val :=
  rd128.lhsIdx_val_of_single rfl j k
/-- the right operand's row is the contraction position … -/
theorem rd128_r0 (j : Cert.ReferenceIdeal.S50000x256.Idx) (k : rd128.contr.Idx) : (rd128.rhsIdx j k 0).val = (k ⟨0, by decide⟩).val :=
  rd128.rhsIdx_val_of_single rfl j k
/-- … and its column the result's column. -/
theorem rd128_r1 (j : Cert.ReferenceIdeal.S50000x256.Idx) (k : rd128.contr.Idx) : (rd128.rhsIdx j k 1).val = (j 1).val := by
  unfold DotDims.rhsIdx
  rw [dif_neg (show ¬(1 : Fin Cert.ReferenceIdeal.S128x256.rank) ∈ rd128.rhsBatch by decide),
    dif_pos (show (1 : Fin Cert.ReferenceIdeal.S128x256.rank) ∈ rd128.rhsNonContracting by decide)]
  rfl

/-- `rd256`: the left operand's row is the result's row … -/
theorem rd256_l0 (j : Cert.ReferenceIdeal.S50000x256.Idx) (k : rd256.contr.Idx) : (rd256.lhsIdx j k 0).val = (j 0).val := by
  unfold DotDims.lhsIdx
  rw [dif_neg (show ¬(0 : Fin Cert.ReferenceIdeal.S50000x256.rank) ∈ rd256.lhsBatch by decide),
    dif_pos (show (0 : Fin Cert.ReferenceIdeal.S50000x256.rank) ∈ rd256.lhsNonContracting by decide)]
  rfl
/-- … its column the contraction position; -/
theorem rd256_l1 (j : Cert.ReferenceIdeal.S50000x256.Idx) (k : rd256.contr.Idx) : (rd256.lhsIdx j k 1).val = (k ⟨0, by decide⟩).val :=
  rd256.lhsIdx_val_of_single rfl j k
/-- the right operand's row is the contraction position … -/
theorem rd256_r0 (j : Cert.ReferenceIdeal.S50000x256.Idx) (k : rd256.contr.Idx) : (rd256.rhsIdx j k 0).val = (k ⟨0, by decide⟩).val :=
  rd256.rhsIdx_val_of_single rfl j k
/-- … and its column the result's column. -/
theorem rd256_r1 (j : Cert.ReferenceIdeal.S50000x256.Idx) (k : rd256.contr.Idx) : (rd256.rhsIdx j k 1).val = (j 1).val := by
  unfold DotDims.rhsIdx
  rw [dif_neg (show ¬(1 : Fin Cert.ReferenceIdeal.S256x256.rank) ∈ rd256.rhsBatch by decide),
    dif_pos (show (1 : Fin Cert.ReferenceIdeal.S256x256.rank) ∈ rd256.rhsNonContracting by decide)]
  rfl

/-- The block's `tpu.matmul` into a zero accumulator, 128 contracted features, at entry `(p, q)`. -/
theorem kmatmul128_apply (prec : Option ContractPrecision) (u : FVec Ideal Cert.KernelIdeal.S5000x128 .f32)
    (w : FVec Ideal Cert.KernelIdeal.S128x256 .f32) (p : Fin 5000) (q : Fin 256) :
    matmul kd128 prec u w (constant Cert.KernelIdeal.S5000x256 .f32 0x00000000#32) (ix2 p q)
      = ∑ k : Fin 128, u (ix2 p k) * w (ix2 k q) :=
  (Ideal.matmul_constant_zero_apply kd128 prec u w (ix2 p q)).trans
    (sum_contr1 (M := 5000) (K := 128) (N := 256) kd128 rfl rfl kd128_l0 kd128_l1 kd128_r0 kd128_r1 u w p q)

/-- The block's `tpu.matmul` into a zero accumulator, 256 contracted features, at entry `(p, q)`. -/
theorem kmatmul256_apply (prec : Option ContractPrecision) (u : FVec Ideal Cert.KernelIdeal.S5000x256 .f32)
    (w : FVec Ideal Cert.KernelIdeal.S256x256 .f32) (p : Fin 5000) (q : Fin 256) :
    matmul kd256 prec u w (constant Cert.KernelIdeal.S5000x256 .f32 0x00000000#32) (ix2 p q)
      = ∑ k : Fin 256, u (ix2 p k) * w (ix2 k q) :=
  (Ideal.matmul_constant_zero_apply kd256 prec u w (ix2 p q)).trans
    (sum_contr1 (M := 5000) (K := 256) (N := 256) kd256 rfl rfl kd256_l0 kd256_l1 kd256_r0 kd256_r1 u w p q)

/-- The whole array's `dot_general`, 128 contracted features, at entry `(r, q)`. -/
theorem rdot128_apply (z : FVec Ideal Cert.ReferenceIdeal.S50000x128 .f32) (w : FVec Ideal Cert.ReferenceIdeal.S128x256 .f32)
    (r : Fin 50000) (q : Fin 256) :
    Host.dotGeneral (F := Ideal) rd128 none z w (ix2 r q) = ∑ k : Fin 128, z (ix2 r k) * w (ix2 k q) :=
  (Ideal.dotGeneral_apply rd128 none .single z w (ix2 r q)).trans
    (sum_contr1 (M := 50000) (K := 128) (N := 256) rd128 rfl rfl rd128_l0 rd128_l1 rd128_r0 rd128_r1 z w r q)

/-- The whole array's `dot_general`, 256 contracted features, at entry `(r, q)`. -/
theorem rdot256_apply (z : FVec Ideal Cert.ReferenceIdeal.S50000x256 .f32) (w : FVec Ideal Cert.ReferenceIdeal.S256x256 .f32)
    (r : Fin 50000) (q : Fin 256) :
    Host.dotGeneral (F := Ideal) rd256 none z w (ix2 r q) = ∑ k : Fin 256, z (ix2 r k) * w (ix2 k q) :=
  (Ideal.dotGeneral_apply rd256 none .single z w (ix2 r q)).trans
    (sum_contr1 (M := 50000) (K := 256) (N := 256) rd256 rfl rfl rd256_l0 rd256_l1 rd256_r0 rd256_r1 z w r q)

/-! ## The bias rows and the zero array read at an entry -/

/-- The bias vector repeated on every row of the whole array, at entry `(r, q)`: the vector at `q`. -/
theorem biasRows_apply {F : FTy → Type} [FloatOps F] (b : (⟨Cert.ReferenceIdeal.S256, .f32⟩ : BufTy).Contents (Elt F))
    (r : Fin 50000) (q : Fin 256) : biasRows b (ix2 r q) = b (ix1 q) := by
  unfold biasRows
  refine (broadcastInDim_apply _ _ _ (ix2 r q) (ix2 (0 : Fin 1) q) fun a => ?_).trans ?_
  · match a with
    | ⟨0, _⟩ => show 0 = if (1 : Nat) = 1 then 0 else r.val; rw [if_pos rfl]
    | ⟨1, _⟩ => show q.val = if (256 : Nat) = 1 then 0 else q.val; rw [if_neg (by decide)]
  · refine broadcastInDim_apply _ _ b (ix2 (0 : Fin 1) q) (ix1 q) fun a => ?_
    match a with
    | ⟨0, _⟩ => show q.val = if (256 : Nat) = 1 then 0 else q.val; rw [if_neg (by decide)]

/-- The all-zero whole array at an entry: what the zero word denotes. -/
theorem zeros256_apply (r : Fin 50000) (q : Fin 256) :
    zeros256 (F := Ideal) (ix2 r q) = Ideal.ofBits .f32 0x00000000#32 := by
  unfold zeros256
  exact broadcastInDim_apply _ _ _ (ix2 r q) ix0 fun a => a.elim0

/-- The block's bias: a `[1, 256]` row, cast to its own shape and broadcast over the 5000 rows, at entry `(p, q)` is the
    row at `q`. -/
theorem krow_apply (brow : FVec Ideal Cert.KernelIdeal.S1x256 .f32)
    (sc : Cert.KernelIdeal.S1x256.ShapeCasts Cert.KernelIdeal.S1x256)
    (bc : Cert.KernelIdeal.S1x256.Broadcasts Cert.KernelIdeal.S5000x256) (p : Fin 5000) (q : Fin 256) :
    broadcastTo Cert.KernelIdeal.S5000x256 (shapeCast Cert.KernelIdeal.S1x256 brow sc) bc (ix2 p q)
      = brow (ix2 (0 : Fin 1) q) := by
  rw [shapeCast_self]
  exact broadcastTo_1b_ab_apply brow bc p q

/-! ## One dense stage on a block against the whole array -/

/-- ONE DENSE STAGE, 128 input features. If a block `u` holds rows `5000 t …` of an array `U` and the block's bias row is
    the bias vector, then `relu (u · w + bias)` computed on the block — the product accumulated from zero, the bias row
    broadcast over the rows — is at entry `(p, q)` the whole-array `relu (U · w + b)` at entry `(5000 t + p, q)`: both
    are `max (∑ k, U (5000 t + p, k) * w (k, q) + b q) 0`. -/
theorem stage128 (u : FVec Ideal Cert.KernelIdeal.S5000x128 .f32) (U : FVec Ideal Cert.ReferenceIdeal.S50000x128 .f32)
    (w : FVec Ideal Cert.KernelIdeal.S128x256 .f32) (brow : FVec Ideal Cert.KernelIdeal.S1x256 .f32)
    (b : FVec Ideal Cert.ReferenceIdeal.S256 .f32)
    (sc : Cert.KernelIdeal.S1x256.ShapeCasts Cert.KernelIdeal.S1x256)
    (bc : Cert.KernelIdeal.S1x256.Broadcasts Cert.KernelIdeal.S5000x256) (t : Fin 10)
    (hu : ∀ (p : Fin 5000) (k : Fin 128), u (ix2 p k) = U (ix2 (rowOf t p) k))
    (hb : ∀ q : Fin 256, brow (ix2 (0 : Fin 1) q) = b (ix1 q)) (p : Fin 5000) (q : Fin 256) :
    maximumf (addf (matmul kd128 (some .fp32) u w (constant Cert.KernelIdeal.S5000x256 .f32 0x00000000#32))
          (broadcastTo Cert.KernelIdeal.S5000x256 (shapeCast Cert.KernelIdeal.S1x256 brow sc) bc))
        (broadcast Cert.KernelIdeal.S5000x256 (Scalar.ofBits .f32 0x00000000#32)) (ix2 p q)
      = dense128 (F := Ideal) U w b (ix2 (rowOf t p) q) := by
  unfold dense128
  rw [maximumf_apply, addf_apply, kmatmul128_apply, krow_apply, broadcast_apply,
    maximumf_apply, addf_apply, rdot128_apply, biasRows_apply, zeros256_apply, hb]
  simp only [hu]
  rfl

/-- ONE DENSE STAGE, 256 input features. If a block `u` holds rows `5000 t …` of an array `U` and the block's bias row is
    the bias vector, then `relu (u · w + bias)` computed on the block — the product accumulated from zero, the bias row
    broadcast over the rows — is at entry `(p, q)` the whole-array `relu (U · w + b)` at entry `(5000 t + p, q)`: both
    are `max (∑ k, U (5000 t + p, k) * w (k, q) + b q) 0`. -/
theorem stage256 (u : FVec Ideal Cert.KernelIdeal.S5000x256 .f32) (U : FVec Ideal Cert.ReferenceIdeal.S50000x256 .f32)
    (w : FVec Ideal Cert.KernelIdeal.S256x256 .f32) (brow : FVec Ideal Cert.KernelIdeal.S1x256 .f32)
    (b : FVec Ideal Cert.ReferenceIdeal.S256 .f32)
    (sc : Cert.KernelIdeal.S1x256.ShapeCasts Cert.KernelIdeal.S1x256)
    (bc : Cert.KernelIdeal.S1x256.Broadcasts Cert.KernelIdeal.S5000x256) (t : Fin 10)
    (hu : ∀ (p : Fin 5000) (k : Fin 256), u (ix2 p k) = U (ix2 (rowOf t p) k))
    (hb : ∀ q : Fin 256, brow (ix2 (0 : Fin 1) q) = b (ix1 q)) (p : Fin 5000) (q : Fin 256) :
    maximumf (addf (matmul kd256 (some .fp32) u w (constant Cert.KernelIdeal.S5000x256 .f32 0x00000000#32))
          (broadcastTo Cert.KernelIdeal.S5000x256 (shapeCast Cert.KernelIdeal.S1x256 brow sc) bc))
        (broadcast Cert.KernelIdeal.S5000x256 (Scalar.ofBits .f32 0x00000000#32)) (ix2 p q)
      = dense256 (F := Ideal) U w b (ix2 (rowOf t p) q) := by
  unfold dense256
  rw [maximumf_apply, addf_apply, kmatmul256_apply, krow_apply, broadcast_apply,
    maximumf_apply, addf_apply, rdot256_apply, biasRows_apply, zeros256_apply, hb]
  simp only [hu]
  rfl

/-! ## The two payloads -/

/-- THE FIRST LAYER'S PAYLOAD. If the two 128-feature input blocks hold rows `5000 t …` of `H` and `A` and the two bias
    rows are the bias vectors, the block's result at `(p, q)` is `mlp128 H A w1 b1 w2 b2` at `(5000 t + p, q)`. -/
theorem pay0_apply
    (x0 x1 : Vec Ideal Cert.KernelIdeal.S5000x128 .f32) (x2 : Vec Ideal Cert.KernelIdeal.S128x256 .f32)
    (x3 : Vec Ideal Cert.KernelIdeal.S1x256 .f32) (x4 : Vec Ideal Cert.KernelIdeal.S256x256 .f32)
    (x5 : Vec Ideal Cert.KernelIdeal.S1x256 .f32)
    (H A : (⟨Cert.ReferenceIdeal.S50000x128, .f32⟩ : BufTy).Contents (Elt Ideal))
    (b1 b2 : (⟨Cert.ReferenceIdeal.S256, .f32⟩ : BufTy).Contents (Elt Ideal)) (t : Fin 10)
    (h0 : ∀ (p : Fin 5000) (k : Fin 128), x0 (ix2 p k) = H (ix2 (rowOf t p) k))
    (h1 : ∀ (p : Fin 5000) (k : Fin 128), x1 (ix2 p k) = A (ix2 (rowOf t p) k))
    (h3 : ∀ q : Fin 256, x3 (ix2 (0 : Fin 1) q) = b1 (ix1 q))
    (h5 : ∀ q : Fin 256, x5 (ix2 (0 : Fin 1) q) = b2 (ix1 q))
    (p : Fin 5000) (q : Fin 256) :
    Cert.KernelIdeal.Gen.k0_pay1 (F := Ideal) x0 x1 x2 x3 x4 x5 (ix2 p q)
      = mlp128 (F := Ideal) H A x2 b1 x4 b2 (ix2 (rowOf t p) q) := by
  have hz : ∀ (p : Fin 5000) (k : Fin 128),
      addf (F := Ideal) (φ := .f32) x0 (shapeCast Cert.KernelIdeal.S5000x128 x1 Cert.KernelIdeal.Gen.shapeCasts_S5000x128_S5000x128) (ix2 p k)
        = addf (F := Ideal) (φ := .f32) H A (ix2 (rowOf t p) k) := fun p k => by
    rw [shapeCast_self, addf_apply, addf_apply, h0, h1]
  unfold Cert.KernelIdeal.Gen.k0_pay1 mlp128
  exact stage256 _ _ x4 x5 b2 _ _ t (fun p k => stage128 _ _ x2 x3 b1 _ _ t hz h3 p k) h5 p q

/-- A LATER LAYER'S PAYLOAD: the same from 256 features, where the block also casts both inputs and both weight matrices
    to their own shapes (the identity). -/
theorem pay1_apply
    (x0 x1 : Vec Ideal Cert.KernelIdeal.S5000x256 .f32) (x2 : Vec Ideal Cert.KernelIdeal.S256x256 .f32)
    (x3 : Vec Ideal Cert.KernelIdeal.S1x256 .f32) (x4 : Vec Ideal Cert.KernelIdeal.S256x256 .f32)
    (x5 : Vec Ideal Cert.KernelIdeal.S1x256 .f32)
    (H A : (⟨Cert.ReferenceIdeal.S50000x256, .f32⟩ : BufTy).Contents (Elt Ideal))
    (b1 b2 : (⟨Cert.ReferenceIdeal.S256, .f32⟩ : BufTy).Contents (Elt Ideal)) (t : Fin 10)
    (h0 : ∀ (p : Fin 5000) (k : Fin 256), x0 (ix2 p k) = H (ix2 (rowOf t p) k))
    (h1 : ∀ (p : Fin 5000) (k : Fin 256), x1 (ix2 p k) = A (ix2 (rowOf t p) k))
    (h3 : ∀ q : Fin 256, x3 (ix2 (0 : Fin 1) q) = b1 (ix1 q))
    (h5 : ∀ q : Fin 256, x5 (ix2 (0 : Fin 1) q) = b2 (ix1 q))
    (p : Fin 5000) (q : Fin 256) :
    Cert.KernelIdeal.Gen.k1_pay1 (F := Ideal) x0 x1 x2 x3 x4 x5 (ix2 p q)
      = mlp256 (F := Ideal) H A x2 b1 x4 b2 (ix2 (rowOf t p) q) := by
  have hz : ∀ (p : Fin 5000) (k : Fin 256),
      addf (F := Ideal) (φ := .f32) (shapeCast Cert.KernelIdeal.S5000x256 x0 Cert.KernelIdeal.Gen.shapeCasts_S5000x256_S5000x256)
          (shapeCast Cert.KernelIdeal.S5000x256 x1 Cert.KernelIdeal.Gen.shapeCasts_S5000x256_S5000x256) (ix2 p k)
        = addf (F := Ideal) (φ := .f32) H A (ix2 (rowOf t p) k) := fun p k => by
    rw [shapeCast_self, shapeCast_self, addf_apply, addf_apply, h0, h1]
  have e2 : shapeCast Cert.KernelIdeal.S256x256 x2 Cert.KernelIdeal.Gen.shapeCasts_S256x256_S256x256 = x2 := shapeCast_self _ _
  have e4 : shapeCast Cert.KernelIdeal.S256x256 x4 Cert.KernelIdeal.Gen.shapeCasts_S256x256_S256x256 = x4 := shapeCast_self _ _
  unfold Cert.KernelIdeal.Gen.k1_pay1 mlp256
  rw [e2, e4]
  exact stage256 _ _ x4 x5 b2 _ _ t (fun p k => stage256 _ _ x2 x3 b1 _ _ t hz h3 p k) h5 p q

end Cert.Gin

end
-- ==== Proof.Blocks0.lean ====
/-
  Region 0 of the kernel program writes one dense double layer of the whole node array.

  The region's grid has ten points; point `t` reads rows `5000 t … 5000 t + 4999` of the feature array and of the
  neighbour sums, the two weight matrices and the two one-row biases whole, and writes the same rows of the output.
  Entry `(p, q)` of what it writes is entry `(5000 t + p, q)` of `relu (relu ((h + a) · w1 + b1) · w2 + b2)` computed
  on all rows (a row of a matrix product depends on the same row of the left factor only), the ten blocks tile the
  output, so after the region the output array is that function of the arrays the region found.
-/
import proofs.«144491_j55198919688274_1_alg».proof.Proof.Gen.KernelIdeal.Frame
import proofs.«144491_j55198919688274_1_alg».proof.Proof.GinSpec
import proofs.«144491_j55198919688274_1_alg».proof.Proof.GinPayload
import Idealize.ShloMosaic.Lib.ValueIdx
import Idealize.ShloMosaic.Lib.Pipeline.Value

set_option maxRecDepth 16384

noncomputable section

namespace Cert.KernelIdeal.Net.R0

open Idealize.ShloMosaic Idealize.ShloMosaic.TcCoe Idealize.ShloMosaic.Tactic Idealize.SL.Sem Idealize.ShloMosaic.StableHlo
open Cert.KernelIdeal Cert.KernelIdeal.Gen Idealize.ShloMosaic.ValueIdx
open Idealize.ShloMosaic.Pipeline (Dat Cfg Window)

variable (V : (c : Dev nD) → (b : Ref sig .tc) → Buf (Elt Ideal) ((c : Thread nD τ).loc b))

theorem zero_offsets : (![0, 0] : Fin 2 → Nat) = fun _ => 0 := funext fun a => by fin_cases a <;> rfl

/-- The printed index maps, decided over the grid: the row-tiled windows are at block `(t, 0)`, the others at `(0, 0)`. -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- A grid point as a number below ten. -/
def pt (t : Fin cfg0.N) : Fin 10 := ⟨t.val, by have h : grid0.N = 10 := N_0; have h2 : t.val < grid0.N := t.isLt; omega⟩

/-- Block `t` of the features is rows `5000 t …` of the array. -/
theorem blk_0 (c : Dev nD) (t : Fin cfg0.N) (p : Fin 5000) (q : Fin 128) :
    (iblk0 V c 0 t : Vec Ideal S5000x128 .f32) (ix2 p q) = V c main_arg0 (ix2 (Cert.Gin.rowOf (pt t) p) q) := by
  obtain ⟨e0, e1, -⟩ := index_facts t
  show V c main_arg0 (((cfg0.win 0).blk t).view.emb (ix2 p q)) = V c main_arg0 (ix2 (Cert.Gin.rowOf (pt t) p) q)
  refine congrArg _ (funext fun a => Fin.ext ?_)
  match a with
  | ⟨0, _⟩ => show win0_0.index t (0 : Fin 2) * 5000 + 1 * p.val = 5000 * t.val + p.val; omega
  | ⟨1, _⟩ => show win0_0.index t (1 : Fin 2) * 128 + 1 * q.val = q.val; omega

/-- Block `t` of the neighbour sums is rows `5000 t …` of the array. -/
theorem blk_1 (c : Dev nD) (t : Fin cfg0.N) (p : Fin 5000) (q : Fin 128) :
    (iblk0 V c 1 t : Vec Ideal S5000x128 .f32) (ix2 p q) = V c main_v13 (ix2 (Cert.Gin.rowOf (pt t) p) q) := by
  obtain ⟨-, -, e0, e1, -⟩ := index_facts t
  show V c main_v13 (((cfg0.win 1).blk t).view.emb (ix2 p q)) = V c main_v13 (ix2 (Cert.Gin.rowOf (pt t) p) q)
  refine congrArg _ (funext fun a => Fin.ext ?_)
  match a with
  | ⟨0, _⟩ => show win0_1.index t (0 : Fin 2) * 5000 + 1 * p.val = 5000 * t.val + p.val; omega
  | ⟨1, _⟩ => show win0_1.index t (1 : Fin 2) * 128 + 1 * q.val = q.val; omega

/-- The first weight matrix is read whole at every point. -/
theorem blk_2 (c : Dev nD) (t : Fin cfg0.N) : (iblk0 V c 2 t : Vec Ideal S128x256 .f32) = V c main_arg3 := by
  obtain ⟨-, -, -, -, e0, e1, -⟩ := index_facts t
  funext y
  show V c main_arg3 (((cfg0.win 2).blk t).view.emb y) = V c main_arg3 y
  refine congrArg _ (funext fun a => Fin.ext ?_)
  match a with
  | ⟨0, _⟩ => show win0_2.index t (0 : Fin 2) * 128 + 1 * (y 0).val = (y 0).val; omega
  | ⟨1, _⟩ => show win0_2.index t (1 : Fin 2) * 256 + 1 * (y 1).val = (y 1).val; omega

/-- The first one-row bias is read whole at every point. -/
theorem blk_3 (c : Dev nD) (t : Fin cfg0.N) : (iblk0 V c 3 t : Vec Ideal S1x256 .f32) = V c main_v14 := by
  obtain ⟨-, -, -, -, -, -, e0, e1, -⟩ := index_facts t
  funext y
  show V c main_v14 (((cfg0.win 3).blk t).view.emb y) = V c main_v14 y
  refine congrArg _ (funext fun a => Fin.ext ?_)
  match a with
  | ⟨0, _⟩ => show win0_3.index t (0 : Fin 2) * 1 + 1 * (y 0).val = (y 0).val; omega
  | ⟨1, _⟩ => show win0_3.index t (1 : Fin 2) * 256 + 1 * (y 1).val = (y 1).val; omega

/-- The second weight matrix is read whole at every point. -/
theorem blk_4 (c : Dev nD) (t : Fin cfg0.N) : (iblk0 V c 4 t : Vec Ideal S256x256 .f32) = V c main_arg5 := by
  obtain ⟨-, -, -, -, -, -, -, -, e0, e1, -⟩ := index_facts t
  funext y
  show V c main_arg5 (((cfg0.win 4).blk t).view.emb y) = V c main_arg5 y
  refine congrArg _ (funext fun a => Fin.ext ?_)
  match a with
  | ⟨0, _⟩ => show win0_4.index t (0 : Fin 2) * 256 + 1 * (y 0).val = (y 0).val; omega
  | ⟨1, _⟩ => show win0_4.index t (1 : Fin 2) * 256 + 1 * (y 1).val = (y 1).val; omega

/-- The second one-row bias is read whole at every point. -/
theorem blk_5 (c : Dev nD) (t : Fin cfg0.N) : (iblk0 V c 5 t : Vec Ideal S1x256 .f32) = V c main_v15 := by
  obtain ⟨-, -, -, -, -, -, -, -, -, -, e0, e1, -⟩ := index_facts t
  funext y
  show V c main_v15 (((cfg0.win 5).blk t).view.emb y) = V c main_v15 y
  refine congrArg _ (funext fun a => Fin.ext ?_)
  match a with
  | ⟨0, _⟩ => show win0_5.index t (0 : Fin 2) * 1 + 1 * (y 0).val = (y 0).val; omega
  | ⟨1, _⟩ => show win0_5.index t (1 : Fin 2) * 256 + 1 * (y 1).val = (y 1).val; omega

/-- Where entry `(p, q)` of the output's block `t` sits in the output array. -/
theorem emb_6 (t : Fin cfg0.N) (p : Fin 5000) (q : Fin 256) :
    ((cfg0.win 6).blk t).view.emb (ix2 p q) = ix2 (Cert.Gin.rowOf (pt t) p) q := by
  obtain ⟨-, -, -, -, -, -, -, -, -, -, -, -, e0, e1⟩ := index_facts t
  refine funext fun a => Fin.ext ?_
  match a with
  | ⟨0, _⟩ => show win0_6.index t (0 : Fin 2) * 5000 + 1 * p.val = 5000 * t.val + p.val; omega
  | ⟨1, _⟩ => show win0_6.index t (1 : Fin 2) * 256 + 1 * q.val = q.val; omega

/-- What point `t` writes back is block `t` of the double layer of the whole arrays. -/
theorem flushed_eq (c : Dev nD) (b1 b2 : (⟨Cert.ReferenceIdeal.S256, .f32⟩ : BufTy).Contents (Elt Ideal))
    (h3 : ∀ q : Fin 256, (V c main_v14 : Vec Ideal S1x256 .f32) (ix2 (0 : Fin 1) q) = b1 (ix1 q))
    (h5 : ∀ q : Fin 256, (V c main_v15 : Vec Ideal S1x256 .f32) (ix2 (0 : Fin 1) q) = b2 (ix1 q))
    (t : Fin cfg0.N) :
    (dat0 V c).flushed 6 t = ((cfg0.win 6).blk t).view.read (Elt Ideal)
      (Cert.Gin.mlp128 (F := Ideal) (V c main_arg0) (V c main_v13) (V c main_arg3) b1 (V c main_arg5) b2) := by
  show (cfg0.win 6).cut (grid0.coords t) ((dat0 V c).after 6 t) = _
  rw [after0_6]
  unfold out0_6
  rw [View.canon_unit_zero zero_offsets]
  simp only [View.ld_unit_zero (S := S5000x128) zero_offsets, View.ld_unit_zero (S := S128x256) zero_offsets,
    View.ld_unit_zero (S := S1x256) zero_offsets, View.ld_unit_zero (S := S256x256) zero_offsets]
  funext j
  obtain ⟨p, q, rfl⟩ : ∃ (p : Fin 5000) (q : Fin 256), j = ix2 p q := ⟨j 0, j 1, eq_ix2 j⟩
  show k0_pay1 (F := Ideal) (iblk0 V c 0 t) (iblk0 V c 1 t) (iblk0 V c 2 t) (iblk0 V c 3 t) (iblk0 V c 4 t) (iblk0 V c 5 t) (ix2 p q)
    = Cert.Gin.mlp128 (F := Ideal) (V c main_arg0) (V c main_v13) (V c main_arg3) b1 (V c main_arg5) b2 (((cfg0.win 6).blk t).view.emb (ix2 p q))
  rw [emb_6 t p q, blk_2 V c t, blk_3 V c t, blk_4 V c t, blk_5 V c t]
  exact Cert.Gin.pay0_apply (iblk0 V c 0 t) (iblk0 V c 1 t) (V c main_arg3) (V c main_v14) (V c main_arg5) (V c main_v15)
    (V c main_arg0) (V c main_v13) b1 b2 (pt t) (blk_0 V c t) (blk_1 V c t) h3 h5 p q

/-- An index of the output array is in point `t`'s block iff each coordinate is in the block's range on its axis. -/
theorem mem_blk (t : Fin cfg0.N) (i : S50000x256.Idx) :
    i ∈ ((cfg0.win 6).blk t).view.set ↔ ∀ a : Fin 2, win0_6.index t a * S5000x256.size a ≤ (i a).val ∧ (i a).val < win0_6.index t a * S5000x256.size a + S5000x256.size a := by
  show i ∈ ((View.whole main_v16).slice (win0_6.rect t)).set ↔ _
  rw [View.set_slice_whole, Rect.mem_set_unit]
  exact Iff.rfl

/-- Every row of the output is in the block of the point `row / 5000`. -/
theorem cover (i : S50000x256.Idx) :
    ∃ t : Fin cfg0.N, (cfg0.win 6).flush t = true ∧ i ∈ ((cfg0.win 6).blk t).view.set := by
  have hi0 : (i 0).val < 50000 := (i 0).isLt
  have hi1 : (i 1).val < 256 := (i 1).isLt
  have hN : grid0.N = 10 := N_0
  let t : Fin cfg0.N := ⟨(i 0).val / 5000, by show (i 0).val / 5000 < grid0.N; omega⟩
  obtain ⟨-, -, -, -, -, -, -, -, -, -, -, -, e0, e1⟩ := index_facts t
  have ht : t.val = (i 0).val / 5000 := rfl
  refine ⟨t, flush0_6 t, ?_⟩
  rw [mem_blk]
  intro a
  match a with
  | ⟨0, _⟩ => show win0_6.index t (0 : Fin 2) * 5000 ≤ (i 0).val ∧ (i 0).val < win0_6.index t (0 : Fin 2) * 5000 + 5000; omega
  | ⟨1, _⟩ => show win0_6.index t (1 : Fin 2) * 256 ≤ (i 1).val ∧ (i 1).val < win0_6.index t (1 : Fin 2) * 256 + 256; omega

/-- After the region its output array is the double layer of the arrays it found. -/
theorem final (c : Dev nD) (H A : (⟨Cert.ReferenceIdeal.S50000x128, .f32⟩ : BufTy).Contents (Elt Ideal)) (w1 : (⟨Cert.ReferenceIdeal.S128x256, .f32⟩ : BufTy).Contents (Elt Ideal)) (b1 : (⟨Cert.ReferenceIdeal.S256, .f32⟩ : BufTy).Contents (Elt Ideal)) (w2 : (⟨Cert.ReferenceIdeal.S256x256, .f32⟩ : BufTy).Contents (Elt Ideal)) (b2 : (⟨Cert.ReferenceIdeal.S256, .f32⟩ : BufTy).Contents (Elt Ideal))
    (e0 : V c main_arg0 = H) (e1 : V c main_v13 = A) (e2 : V c main_arg3 = w1)
    (h3 : ∀ q : Fin 256, (V c main_v14 : Vec Ideal S1x256 .f32) (ix2 (0 : Fin 1) q) = b1 (ix1 q))
    (e4 : V c main_arg5 = w2)
    (h5 : ∀ q : Fin 256, (V c main_v15 : Vec Ideal S1x256 .f32) (ix2 (0 : Fin 1) q) = b2 (ix1 q)) :
    (dat0 V c).arrAt 6 cfg0.N = Cert.Gin.mlp128 (F := Ideal) H A w1 b1 w2 b2 := by
  subst e0 e1 e2 e4
  exact (dat0 V c).arrAt_eq_of_cover 6 _ (fun t _ => flushed_eq V c b1 b2 h3 h5 t) cover

end Cert.KernelIdeal.Net.R0

end
-- ==== Proof.Blocks1.lean ====
/-
  Region 1 of the kernel program writes one dense double layer of the whole node array.

  The region's grid has ten points; point `t` reads rows `5000 t … 5000 t + 4999` of the feature array and of the
  neighbour sums, the two weight matrices and the two one-row biases whole, and writes the same rows of the output.
  Entry `(p, q)` of what it writes is entry `(5000 t + p, q)` of `relu (relu ((h + a) · w1 + b1) · w2 + b2)` computed
  on all rows (a row of a matrix product depends on the same row of the left factor only), the ten blocks tile the
  output, so after the region the output array is that function of the arrays the region found.
-/
import proofs.«144491_j55198919688274_1_alg».proof.Proof.Gen.KernelIdeal.Frame
import proofs.«144491_j55198919688274_1_alg».proof.Proof.GinSpec
import proofs.«144491_j55198919688274_1_alg».proof.Proof.GinPayload
import Idealize.ShloMosaic.Lib.ValueIdx
import Idealize.ShloMosaic.Lib.Pipeline.Value

set_option maxRecDepth 16384

noncomputable section

namespace Cert.KernelIdeal.Net.R1

open Idealize.ShloMosaic Idealize.ShloMosaic.TcCoe Idealize.ShloMosaic.Tactic Idealize.SL.Sem Idealize.ShloMosaic.StableHlo
open Cert.KernelIdeal Cert.KernelIdeal.Gen Idealize.ShloMosaic.ValueIdx
open Idealize.ShloMosaic.Pipeline (Dat Cfg Window)

variable (V : (c : Dev nD) → (b : Ref sig .tc) → Buf (Elt Ideal) ((c : Thread nD τ).loc b))

theorem zero_offsets : (![0, 0] : Fin 2 → Nat) = fun _ => 0 := funext fun a => by fin_cases a <;> rfl

/-- The printed index maps, decided over the grid: the row-tiled windows are at block `(t, 0)`, the others at `(0, 0)`. -/
theorem index_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- A grid point as a number below ten. -/
def pt (t : Fin cfg1.N) : Fin 10 := ⟨t.val, by have h : grid1.N = 10 := N_1; have h2 : t.val < grid1.N := t.isLt; omega⟩

/-- Block `t` of the features is rows `5000 t …` of the array. -/
theorem blk_0 (c : Dev nD) (t : Fin cfg1.N) (p : Fin 5000) (q : Fin 256) :
    (iblk1 V c 0 t : Vec Ideal S5000x256 .f32) (ix2 p q) = V c main_v16 (ix2 (Cert.Gin.rowOf (pt t) p) q) := by
  obtain ⟨e0, e1, -⟩ := index_facts t
  show V c main_v16 (((cfg1.win 0).blk t).view.emb (ix2 p q)) = V c main_v16 (ix2 (Cert.Gin.rowOf (pt t) p) q)
  refine congrArg _ (funext fun a => Fin.ext ?_)
  match a with
  | ⟨0, _⟩ => show win1_0.index t (0 : Fin 2) * 5000 + 1 * p.val = 5000 * t.val + p.val; omega
  | ⟨1, _⟩ => show win1_0.index t (1 : Fin 2) * 256 + 1 * q.val = q.val; omega

/-- Block `t` of the neighbour sums is rows `5000 t …` of the array. -/
theorem blk_1 (c : Dev nD) (t : Fin cfg1.N) (p : Fin 5000) (q : Fin 256) :
    (iblk1 V c 1 t : Vec Ideal S5000x256 .f32) (ix2 p q) = V c main_v34 (ix2 (Cert.Gin.rowOf (pt t) p) q) := by
  obtain ⟨-, -, e0, e1, -⟩ := index_facts t
  show V c main_v34 (((cfg1.win 1).blk t).view.emb (ix2 p q)) = V c main_v34 (ix2 (Cert.Gin.rowOf (pt t) p) q)
  refine congrArg _ (funext fun a => Fin.ext ?_)
  match a with
  | ⟨0, _⟩ => show win1_1.index t (0 : Fin 2) * 5000 + 1 * p.val = 5000 * t.val + p.val; omega
  | ⟨1, _⟩ => show win1_1.index t (1 : Fin 2) * 256 + 1 * q.val = q.val; omega

/-- The first weight matrix is read whole at every point. -/
theorem blk_2 (c : Dev nD) (t : Fin cfg1.N) : (iblk1 V c 2 t : Vec Ideal S256x256 .f32) = V c main_v18 := by
  obtain ⟨-, -, -, -, e0, e1, -⟩ := index_facts t
  funext y
  show V c main_v18 (((cfg1.win 2).blk t).view.emb y) = V c main_v18 y
  refine congrArg _ (funext fun a => Fin.ext ?_)
  match a with
  | ⟨0, _⟩ => show win1_2.index t (0 : Fin 2) * 256 + 1 * (y 0).val = (y 0).val; omega
  | ⟨1, _⟩ => show win1_2.index t (1 : Fin 2) * 256 + 1 * (y 1).val = (y 1).val; omega

/-- The first one-row bias is read whole at every point. -/
theorem blk_3 (c : Dev nD) (t : Fin cfg1.N) : (iblk1 V c 3 t : Vec Ideal S1x256 .f32) = V c main_v35 := by
  obtain ⟨-, -, -, -, -, -, e0, e1, -⟩ := index_facts t
  funext y
  show V c main_v35 (((cfg1.win 3).blk t).view.emb y) = V c main_v35 y
  refine congrArg _ (funext fun a => Fin.ext ?_)
  match a with
  | ⟨0, _⟩ => show win1_3.index t (0 : Fin 2) * 1 + 1 * (y 0).val = (y 0).val; omega
  | ⟨1, _⟩ => show win1_3.index t (1 : Fin 2) * 256 + 1 * (y 1).val = (y 1).val; omega

/-- The second weight matrix is read whole at every point. -/
theorem blk_4 (c : Dev nD) (t : Fin cfg1.N) : (iblk1 V c 4 t : Vec Ideal S256x256 .f32) = V c main_v22 := by
  obtain ⟨-, -, -, -, -, -, -, -, e0, e1, -⟩ := index_facts t
  funext y
  show V c main_v22 (((cfg1.win 4).blk t).view.emb y) = V c main_v22 y
  refine congrArg _ (funext fun a => Fin.ext ?_)
  match a with
  | ⟨0, _⟩ => show win1_4.index t (0 : Fin 2) * 256 + 1 * (y 0).val = (y 0).val; omega
  | ⟨1, _⟩ => show win1_4.index t (1 : Fin 2) * 256 + 1 * (y 1).val = (y 1).val; omega

/-- The second one-row bias is read whole at every point. -/
theorem blk_5 (c : Dev nD) (t : Fin cfg1.N) : (iblk1 V c 5 t : Vec Ideal S1x256 .f32) = V c main_v36 := by
  obtain ⟨-, -, -, -, -, -, -, -, -, -, e0, e1, -⟩ := index_facts t
  funext y
  show V c main_v36 (((cfg1.win 5).blk t).view.emb y) = V c main_v36 y
  refine congrArg _ (funext fun a => Fin.ext ?_)
  match a with
  | ⟨0, _⟩ => show win1_5.index t (0 : Fin 2) * 1 + 1 * (y 0).val = (y 0).val; omega
  | ⟨1, _⟩ => show win1_5.index t (1 : Fin 2) * 256 + 1 * (y 1).val = (y 1).val; omega

/-- Where entry `(p, q)` of the output's block `t` sits in the output array. -/
theorem emb_6 (t : Fin cfg1.N) (p : Fin 5000) (q : Fin 256) :
    ((cfg1.win 6).blk t).view.emb (ix2 p q) = ix2 (Cert.Gin.rowOf (pt t) p) q := by
  obtain ⟨-, -, -, -, -, -, -, -, -, -, -, -, e0, e1⟩ := index_facts t
  refine funext fun a => Fin.ext ?_
  match a with
  | ⟨0, _⟩ => show win1_6.index t (0 : Fin 2) * 5000 + 1 * p.val = 5000 * t.val + p.val; omega
  | ⟨1, _⟩ => show win1_6.index t (1 : Fin 2) * 256 + 1 * q.val = q.val; omega

/-- What point `t` writes back is block `t` of the double layer of the whole arrays. -/
theorem flushed_eq (c : Dev nD) (b1 b2 : (⟨Cert.ReferenceIdeal.S256, .f32⟩ : BufTy).Contents (Elt Ideal))
    (h3 : ∀ q : Fin 256, (V c main_v35 : Vec Ideal S1x256 .f32) (ix2 (0 : Fin 1) q) = b1 (ix1 q))
    (h5 : ∀ q : Fin 256, (V c main_v36 : Vec Ideal S1x256 .f32) (ix2 (0 : Fin 1) q) = b2 (ix1 q))
    (t : Fin cfg1.N) :
    (dat1 V c).flushed 6 t = ((cfg1.win 6).blk t).view.read (Elt Ideal)
      (Cert.Gin.mlp256 (F := Ideal) (V c main_v16) (V c main_v34) (V c main_v18) b1 (V c main_v22) b2) := by
  show (cfg1.win 6).cut (grid1.coords t) ((dat1 V c).after 6 t) = _
  rw [after1_6]
  unfold out1_6
  rw [View.canon_unit_zero zero_offsets]
  simp only [View.ld_unit_zero (S := S5000x256) zero_offsets, View.ld_unit_zero (S := S256x256) zero_offsets,
    View.ld_unit_zero (S := S1x256) zero_offsets, View.ld_unit_zero (S := S256x256) zero_offsets]
  funext j
  obtain ⟨p, q, rfl⟩ : ∃ (p : Fin 5000) (q : Fin 256), j = ix2 p q := ⟨j 0, j 1, eq_ix2 j⟩
  show k1_pay1 (F := Ideal) (iblk1 V c 0 t) (iblk1 V c 1 t) (iblk1 V c 2 t) (iblk1 V c 3 t) (iblk1 V c 4 t) (iblk1 V c 5 t) (ix2 p q)
    = Cert.Gin.mlp256 (F := Ideal) (V c main_v16) (V c main_v34) (V c main_v18) b1 (V c main_v22) b2 (((cfg1.win 6).blk t).view.emb (ix2 p q))
  rw [emb_6 t p q, blk_2 V c t, blk_3 V c t, blk_4 V c t, blk_5 V c t]
  exact Cert.Gin.pay1_apply (iblk1 V c 0 t) (iblk1 V c 1 t) (V c main_v18) (V c main_v35) (V c main_v22) (V c main_v36)
    (V c main_v16) (V c main_v34) b1 b2 (pt t) (blk_0 V c t) (blk_1 V c t) h3 h5 p q

/-- An index of the output array is in point `t`'s block iff each coordinate is in the block's range on its axis. -/
theorem mem_blk (t : Fin cfg1.N) (i : S50000x256.Idx) :
    i ∈ ((cfg1.win 6).blk t).view.set ↔ ∀ a : Fin 2, win1_6.index t a * S5000x256.size a ≤ (i a).val ∧ (i a).val < win1_6.index t a * S5000x256.size a + S5000x256.size a := by
  show i ∈ ((View.whole main_v37).slice (win1_6.rect t)).set ↔ _
  rw [View.set_slice_whole, Rect.mem_set_unit]
  exact Iff.rfl

/-- Every row of the output is in the block of the point `row / 5000`. -/
theorem cover (i : S50000x256.Idx) :
    ∃ t : Fin cfg1.N, (cfg1.win 6).flush t = true ∧ i ∈ ((cfg1.win 6).blk t).view.set := by
  have hi0 : (i 0).val < 50000 := (i 0).isLt
  have hi1 : (i 1).val < 256 := (i 1).isLt
  have hN : grid1.N = 10 := N_1
  let t : Fin cfg1.N := ⟨(i 0).val / 5000, by show (i 0).val / 5000 < grid1.N; omega⟩
  obtain ⟨-, -, -, -, -, -, -, -, -, -, -, -, e0, e1⟩ := index_facts t
  have ht : t.val = (i 0).val / 5000 := rfl
  refine ⟨t, flush1_6 t, ?_⟩
  rw [mem_blk]
  intro a
  match a with
  | ⟨0, _⟩ => show win1_6.index t (0 : Fin 2) * 5000 ≤ (i 0).val ∧ (i 0).val < win1_6.index t (0 : Fin 2) * 5000 + 5000; omega
  | ⟨1, _⟩ => show win1_6.index t (1 : Fin 2) * 256 ≤ (i 1).val ∧ (i 1).val < win1_6.index t (1 : Fin 2) * 256 + 256; omega

/-- After the region its output array is the double layer of the arrays it found. -/
theorem final (c : Dev nD) (H A : (⟨Cert.ReferenceIdeal.S50000x256, .f32⟩ : BufTy).Contents (Elt Ideal)) (w1 : (⟨Cert.ReferenceIdeal.S256x256, .f32⟩ : BufTy).Contents (Elt Ideal)) (b1 : (⟨Cert.ReferenceIdeal.S256, .f32⟩ : BufTy).Contents (Elt Ideal)) (w2 : (⟨Cert.ReferenceIdeal.S256x256, .f32⟩ : BufTy).Contents (Elt Ideal)) (b2 : (⟨Cert.ReferenceIdeal.S256, .f32⟩ : BufTy).Contents (Elt Ideal))
    (e0 : V c main_v16 = H) (e1 : V c main_v34 = A) (e2 : V c main_v18 = w1)
    (h3 : ∀ q : Fin 256, (V c main_v35 : Vec Ideal S1x256 .f32) (ix2 (0 : Fin 1) q) = b1 (ix1 q))
    (e4 : V c main_v22 = w2)
    (h5 : ∀ q : Fin 256, (V c main_v36 : Vec Ideal S1x256 .f32) (ix2 (0 : Fin 1) q) = b2 (ix1 q)) :
    (dat1 V c).arrAt 6 cfg1.N = Cert.Gin.mlp256 (F := Ideal) H A w1 b1 w2 b2 := by
  subst e0 e1 e2 e4
  exact (dat1 V c).arrAt_eq_of_cover 6 _ (fun t _ => flushed_eq V c b1 b2 h3 h5 t) cover

end Cert.KernelIdeal.Net.R1

end
-- ==== Proof.Blocks2.lean ====
/-
  Region 2 of the kernel program writes one dense double layer of the whole node array.

  The region's grid has ten points; point `t` reads rows `5000 t … 5000 t + 4999` of the feature array and of the
  neighbour sums, the two weight matrices and the two one-row biases whole, and writes the same rows of the output.
  Entry `(p, q)` of what it writes is entry `(5000 t + p, q)` of `relu (relu ((h + a) · w1 + b1) · w2 + b2)` computed
  on all rows (a row of a matrix product depends on the same row of the left factor only), the ten blocks tile the
  output, so after the region the output array is that function of the arrays the region found.
-/
import proofs.«144491_j55198919688274_1_alg».proof.Proof.Gen.KernelIdeal.Frame
import proofs.«144491_j55198919688274_1_alg».proof.Proof.GinSpec
import proofs.«144491_j55198919688274_1_alg».proof.Proof.GinPayload
import Idealize.ShloMosaic.Lib.ValueIdx
import Idealize.ShloMosaic.Lib.Pipeline.Value

set_option maxRecDepth 16384

noncomputable section

namespace Cert.KernelIdeal.Net.R2

open Idealize.ShloMosaic Idealize.ShloMosaic.TcCoe Idealize.ShloMosaic.Tactic Idealize.SL.Sem Idealize.ShloMosaic.StableHlo
open Cert.KernelIdeal Cert.KernelIdeal.Gen Idealize.ShloMosaic.ValueIdx
open Idealize.ShloMosaic.Pipeline (Dat Cfg Window)

variable (V : (c : Dev nD) → (b : Ref sig .tc) → Buf (Elt Ideal) ((c : Thread nD τ).loc b))

theorem zero_offsets : (![0, 0] : Fin 2 → Nat) = fun _ => 0 := funext fun a => by fin_cases a <;> rfl

/-- The printed index maps, decided over the grid: the row-tiled windows are at block `(t, 0)`, the others at `(0, 0)`. -/
theorem index_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-- A grid point as a number below ten. -/
def pt (t : Fin cfg2.N) : Fin 10 := ⟨t.val, by have h : grid2.N = 10 := N_2; have h2 : t.val < grid2.N := t.isLt; omega⟩

/-- Block `t` of the features is rows `5000 t …` of the array. -/
theorem blk_0 (c : Dev nD) (t : Fin cfg2.N) (p : Fin 5000) (q : Fin 256) :
    (iblk2 V c 0 t : Vec Ideal S5000x256 .f32) (ix2 p q) = V c main_v37 (ix2 (Cert.Gin.rowOf (pt t) p) q) := by
  obtain ⟨e0, e1, -⟩ := index_facts t
  show V c main_v37 (((cfg2.win 0).blk t).view.emb (ix2 p q)) = V c main_v37 (ix2 (Cert.Gin.rowOf (pt t) p) q)
  refine congrArg _ (funext fun a => Fin.ext ?_)
  match a with
  | ⟨0, _⟩ => show win2_0.index t (0 : Fin 2) * 5000 + 1 * p.val = 5000 * t.val + p.val; omega
  | ⟨1, _⟩ => show win2_0.index t (1 : Fin 2) * 256 + 1 * q.val = q.val; omega

/-- Block `t` of the neighbour sums is rows `5000 t …` of the array. -/
theorem blk_1 (c : Dev nD) (t : Fin cfg2.N) (p : Fin 5000) (q : Fin 256) :
    (iblk2 V c 1 t : Vec Ideal S5000x256 .f32) (ix2 p q) = V c main_v55 (ix2 (Cert.Gin.rowOf (pt t) p) q) := by
  obtain ⟨-, -, e0, e1, -⟩ := index_facts t
  show V c main_v55 (((cfg2.win 1).blk t).view.emb (ix2 p q)) = V c main_v55 (ix2 (Cert.Gin.rowOf (pt t) p) q)
  refine congrArg _ (funext fun a => Fin.ext ?_)
  match a with
  | ⟨0, _⟩ => show win2_1.index t (0 : Fin 2) * 5000 + 1 * p.val = 5000 * t.val + p.val; omega
  | ⟨1, _⟩ => show win2_1.index t (1 : Fin 2) * 256 + 1 * q.val = q.val; omega

/-- The first weight matrix is read whole at every point. -/
theorem blk_2 (c : Dev nD) (t : Fin cfg2.N) : (iblk2 V c 2 t : Vec Ideal S256x256 .f32) = V c main_v39 := by
  obtain ⟨-, -, -, -, e0, e1, -⟩ := index_facts t
  funext y
  show V c main_v39 (((cfg2.win 2).blk t).view.emb y) = V c main_v39 y
  refine congrArg _ (funext fun a => Fin.ext ?_)
  match a with
  | ⟨0, _⟩ => show win2_2.index t (0 : Fin 2) * 256 + 1 * (y 0).val = (y 0).val; omega
  | ⟨1, _⟩ => show win2_2.index t (1 : Fin 2) * 256 + 1 * (y 1).val = (y 1).val; omega

/-- The first one-row bias is read whole at every point. -/
theorem blk_3 (c : Dev nD) (t : Fin cfg2.N) : (iblk2 V c 3 t : Vec Ideal S1x256 .f32) = V c main_v56 := by
  obtain ⟨-, -, -, -, -, -, e0, e1, -⟩ := index_facts t
  funext y
  show V c main_v56 (((cfg2.win 3).blk t).view.emb y) = V c main_v56 y
  refine congrArg _ (funext fun a => Fin.ext ?_)
  match a with
  | ⟨0, _⟩ => show win2_3.index t (0 : Fin 2) * 1 + 1 * (y 0).val = (y 0).val; omega
  | ⟨1, _⟩ => show win2_3.index t (1 : Fin 2) * 256 + 1 * (y 1).val = (y 1).val; omega

/-- The second weight matrix is read whole at every point. -/
theorem blk_4 (c : Dev nD) (t : Fin cfg2.N) : (iblk2 V c 4 t : Vec Ideal S256x256 .f32) = V c main_v43 := by
  obtain ⟨-, -, -, -, -, -, -, -, e0, e1, -⟩ := index_facts t
  funext y
  show V c main_v43 (((cfg2.win 4).blk t).view.emb y) = V c main_v43 y
  refine congrArg _ (funext fun a => Fin.ext ?_)
  match a with
  | ⟨0, _⟩ => show win2_4.index t (0 : Fin 2) * 256 + 1 * (y 0).val = (y 0).val; omega
  | ⟨1, _⟩ => show win2_4.index t (1 : Fin 2) * 256 + 1 * (y 1).val = (y 1).val; omega

/-- The second one-row bias is read whole at every point. -/
theorem blk_5 (c : Dev nD) (t : Fin cfg2.N) : (iblk2 V c 5 t : Vec Ideal S1x256 .f32) = V c main_v57 := by
  obtain ⟨-, -, -, -, -, -, -, -, -, -, e0, e1, -⟩ := index_facts t
  funext y
  show V c main_v57 (((cfg2.win 5).blk t).view.emb y) = V c main_v57 y
  refine congrArg _ (funext fun a => Fin.ext ?_)
  match a with
  | ⟨0, _⟩ => show win2_5.index t (0 : Fin 2) * 1 + 1 * (y 0).val = (y 0).val; omega
  | ⟨1, _⟩ => show win2_5.index t (1 : Fin 2) * 256 + 1 * (y 1).val = (y 1).val; omega

/-- Where entry `(p, q)` of the output's block `t` sits in the output array. -/
theorem emb_6 (t : Fin cfg2.N) (p : Fin 5000) (q : Fin 256) :
    ((cfg2.win 6).blk t).view.emb (ix2 p q) = ix2 (Cert.Gin.rowOf (pt t) p) q := by
  obtain ⟨-, -, -, -, -, -, -, -, -, -, -, -, e0, e1⟩ := index_facts t
  refine funext fun a => Fin.ext ?_
  match a with
  | ⟨0, _⟩ => show win2_6.index t (0 : Fin 2) * 5000 + 1 * p.val = 5000 * t.val + p.val; omega
  | ⟨1, _⟩ => show win2_6.index t (1 : Fin 2) * 256 + 1 * q.val = q.val; omega

/-- What point `t` writes back is block `t` of the double layer of the whole arrays. -/
theorem flushed_eq (c : Dev nD) (b1 b2 : (⟨Cert.ReferenceIdeal.S256, .f32⟩ : BufTy).Contents (Elt Ideal))
    (h3 : ∀ q : Fin 256, (V c main_v56 : Vec Ideal S1x256 .f32) (ix2 (0 : Fin 1) q) = b1 (ix1 q))
    (h5 : ∀ q : Fin 256, (V c main_v57 : Vec Ideal S1x256 .f32) (ix2 (0 : Fin 1) q) = b2 (ix1 q))
    (t : Fin cfg2.N) :
    (dat2 V c).flushed 6 t = ((cfg2.win 6).blk t).view.read (Elt Ideal)
      (Cert.Gin.mlp256 (F := Ideal) (V c main_v37) (V c main_v55) (V c main_v39) b1 (V c main_v43) b2) := by
  show (cfg2.win 6).cut (grid2.coords t) ((dat2 V c).after 6 t) = _
  rw [after2_6]
  unfold out2_6
  rw [View.canon_unit_zero zero_offsets]
  simp only [View.ld_unit_zero (S := S5000x256) zero_offsets, View.ld_unit_zero (S := S256x256) zero_offsets,
    View.ld_unit_zero (S := S1x256) zero_offsets, View.ld_unit_zero (S := S256x256) zero_offsets]
  funext j
  obtain ⟨p, q, rfl⟩ : ∃ (p : Fin 5000) (q : Fin 256), j = ix2 p q := ⟨j 0, j 1, eq_ix2 j⟩
  show k2_pay1 (F := Ideal) (iblk2 V c 0 t) (iblk2 V c 1 t) (iblk2 V c 2 t) (iblk2 V c 3 t) (iblk2 V c 4 t) (iblk2 V c 5 t) (ix2 p q)
    = Cert.Gin.mlp256 (F := Ideal) (V c main_v37) (V c main_v55) (V c main_v39) b1 (V c main_v43) b2 (((cfg2.win 6).blk t).view.emb (ix2 p q))
  rw [emb_6 t p q, blk_2 V c t, blk_3 V c t, blk_4 V c t, blk_5 V c t]
  exact Cert.Gin.pay1_apply (iblk2 V c 0 t) (iblk2 V c 1 t) (V c main_v39) (V c main_v56) (V c main_v43) (V c main_v57)
    (V c main_v37) (V c main_v55) b1 b2 (pt t) (blk_0 V c t) (blk_1 V c t) h3 h5 p q

/-- An index of the output array is in point `t`'s block iff each coordinate is in the block's range on its axis. -/
theorem mem_blk (t : Fin cfg2.N) (i : S50000x256.Idx) :
    i ∈ ((cfg2.win 6).blk t).view.set ↔ ∀ a : Fin 2, win2_6.index t a * S5000x256.size a ≤ (i a).val ∧ (i a).val < win2_6.index t a * S5000x256.size a + S5000x256.size a := by
  show i ∈ ((View.whole main_v58).slice (win2_6.rect t)).set ↔ _
  rw [View.set_slice_whole, Rect.mem_set_unit]
  exact Iff.rfl

/-- Every row of the output is in the block of the point `row / 5000`. -/
theorem cover (i : S50000x256.Idx) :
    ∃ t : Fin cfg2.N, (cfg2.win 6).flush t = true ∧ i ∈ ((cfg2.win 6).blk t).view.set := by
  have hi0 : (i 0).val < 50000 := (i 0).isLt
  have hi1 : (i 1).val < 256 := (i 1).isLt
  have hN : grid2.N = 10 := N_2
  let t : Fin cfg2.N := ⟨(i 0).val / 5000, by show (i 0).val / 5000 < grid2.N; omega⟩
  obtain ⟨-, -, -, -, -, -, -, -, -, -, -, -, e0, e1⟩ := index_facts t
  have ht : t.val = (i 0).val / 5000 := rfl
  refine ⟨t, flush2_6 t, ?_⟩
  rw [mem_blk]
  intro a
  match a with
  | ⟨0, _⟩ => show win2_6.index t (0 : Fin 2) * 5000 ≤ (i 0).val ∧ (i 0).val < win2_6.index t (0 : Fin 2) * 5000 + 5000; omega
  | ⟨1, _⟩ => show win2_6.index t (1 : Fin 2) * 256 ≤ (i 1).val ∧ (i 1).val < win2_6.index t (1 : Fin 2) * 256 + 256; omega

/-- After the region its output array is the double layer of the arrays it found. -/
theorem final (c : Dev nD) (H A : (⟨Cert.ReferenceIdeal.S50000x256, .f32⟩ : BufTy).Contents (Elt Ideal)) (w1 : (⟨Cert.ReferenceIdeal.S256x256, .f32⟩ : BufTy).Contents (Elt Ideal)) (b1 : (⟨Cert.ReferenceIdeal.S256, .f32⟩ : BufTy).Contents (Elt Ideal)) (w2 : (⟨Cert.ReferenceIdeal.S256x256, .f32⟩ : BufTy).Contents (Elt Ideal)) (b2 : (⟨Cert.ReferenceIdeal.S256, .f32⟩ : BufTy).Contents (Elt Ideal))
    (e0 : V c main_v37 = H) (e1 : V c main_v55 = A) (e2 : V c main_v39 = w1)
    (h3 : ∀ q : Fin 256, (V c main_v56 : Vec Ideal S1x256 .f32) (ix2 (0 : Fin 1) q) = b1 (ix1 q))
    (e4 : V c main_v43 = w2)
    (h5 : ∀ q : Fin 256, (V c main_v57 : Vec Ideal S1x256 .f32) (ix2 (0 : Fin 1) q) = b2 (ix1 q)) :
    (dat2 V c).arrAt 6 cfg2.N = Cert.Gin.mlp256 (F := Ideal) H A w1 b1 w2 b2 := by
  subst e0 e1 e2 e4
  exact (dat2 V c).arrAt_eq_of_cover 6 _ (fun t _ => flushed_eq V c b1 b2 h3 h5 t) cover

end Cert.KernelIdeal.Net.R2

end
-- ==== Proof.Blocks3.lean ====
/-
  Region 3 of the kernel program writes one dense double layer of the whole node array.

  The region's grid has ten points; point `t` reads rows `5000 t … 5000 t + 4999` of the feature array and of the
  neighbour sums, the two weight matrices and the two one-row biases whole, and writes the same rows of the output.
  Entry `(p, q)` of what it writes is entry `(5000 t + p, q)` of `relu (relu ((h + a) · w1 + b1) · w2 + b2)` computed
  on all rows (a row of a matrix product depends on the same row of the left factor only), the ten blocks tile the
  output, so after the region the output array is that function of the arrays the region found.
-/
import proofs.«144491_j55198919688274_1_alg».proof.Proof.Gen.KernelIdeal.Frame
import proofs.«144491_j55198919688274_1_alg».proof.Proof.GinSpec
import proofs.«144491_j55198919688274_1_alg».proof.Proof.GinPayload
import Idealize.ShloMosaic.Lib.ValueIdx
import Idealize.ShloMosaic.Lib.Pipeline.Value

set_option maxRecDepth 16384

noncomputable section

namespace Cert.KernelIdeal.Net.R3

open Idealize.ShloMosaic Idealize.ShloMosaic.TcCoe Idealize.ShloMosaic.Tactic Idealize.SL.Sem Idealize.ShloMosaic.StableHlo
open Cert.KernelIdeal Cert.KernelIdeal.Gen Idealize.ShloMosaic.ValueIdx
open Idealize.ShloMosaic.Pipeline (Dat Cfg Window)

variable (V : (c : Dev nD) → (b : Ref sig .tc) → Buf (Elt Ideal) ((c : Thread nD τ).loc b))

theorem zero_offsets : (![0, 0] : Fin 2 → Nat) = fun _ => 0 := funext fun a => by fin_cases a <;> rfl

/-- The printed index maps, decided over the grid: the row-tiled windows are at block `(t, 0)`, the others at `(0, 0)`. -/
theorem index_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0 :=
  (by decide +kernel : ∀ t : Fin grid3.N, _)

/-- A grid point as a number below ten. -/
def pt (t : Fin cfg3.N) : Fin 10 := ⟨t.val, by have h : grid3.N = 10 := N_3; have h2 : t.val < grid3.N := t.isLt; omega⟩

/-- Block `t` of the features is rows `5000 t …` of the array. -/
theorem blk_0 (c : Dev nD) (t : Fin cfg3.N) (p : Fin 5000) (q : Fin 256) :
    (iblk3 V c 0 t : Vec Ideal S5000x256 .f32) (ix2 p q) = V c main_v58 (ix2 (Cert.Gin.rowOf (pt t) p) q) := by
  obtain ⟨e0, e1, -⟩ := index_facts t
  show V c main_v58 (((cfg3.win 0).blk t).view.emb (ix2 p q)) = V c main_v58 (ix2 (Cert.Gin.rowOf (pt t) p) q)
  refine congrArg _ (funext fun a => Fin.ext ?_)
  match a with
  | ⟨0, _⟩ => show win3_0.index t (0 : Fin 2) * 5000 + 1 * p.val = 5000 * t.val + p.val; omega
  | ⟨1, _⟩ => show win3_0.index t (1 : Fin 2) * 256 + 1 * q.val = q.val; omega

/-- Block `t` of the neighbour sums is rows `5000 t …` of the array. -/
theorem blk_1 (c : Dev nD) (t : Fin cfg3.N) (p : Fin 5000) (q : Fin 256) :
    (iblk3 V c 1 t : Vec Ideal S5000x256 .f32) (ix2 p q) = V c main_v76 (ix2 (Cert.Gin.rowOf (pt t) p) q) := by
  obtain ⟨-, -, e0, e1, -⟩ := index_facts t
  show V c main_v76 (((cfg3.win 1).blk t).view.emb (ix2 p q)) = V c main_v76 (ix2 (Cert.Gin.rowOf (pt t) p) q)
  refine congrArg _ (funext fun a => Fin.ext ?_)
  match a with
  | ⟨0, _⟩ => show win3_1.index t (0 : Fin 2) * 5000 + 1 * p.val = 5000 * t.val + p.val; omega
  | ⟨1, _⟩ => show win3_1.index t (1 : Fin 2) * 256 + 1 * q.val = q.val; omega

/-- The first weight matrix is read whole at every point. -/
theorem blk_2 (c : Dev nD) (t : Fin cfg3.N) : (iblk3 V c 2 t : Vec Ideal S256x256 .f32) = V c main_v60 := by
  obtain ⟨-, -, -, -, e0, e1, -⟩ := index_facts t
  funext y
  show V c main_v60 (((cfg3.win 2).blk t).view.emb y) = V c main_v60 y
  refine congrArg _ (funext fun a => Fin.ext ?_)
  match a with
  | ⟨0, _⟩ => show win3_2.index t (0 : Fin 2) * 256 + 1 * (y 0).val = (y 0).val; omega
  | ⟨1, _⟩ => show win3_2.index t (1 : Fin 2) * 256 + 1 * (y 1).val = (y 1).val; omega

/-- The first one-row bias is read whole at every point. -/
theorem blk_3 (c : Dev nD) (t : Fin cfg3.N) : (iblk3 V c 3 t : Vec Ideal S1x256 .f32) = V c main_v77 := by
  obtain ⟨-, -, -, -, -, -, e0, e1, -⟩ := index_facts t
  funext y
  show V c main_v77 (((cfg3.win 3).blk t).view.emb y) = V c main_v77 y
  refine congrArg _ (funext fun a => Fin.ext ?_)
  match a with
  | ⟨0, _⟩ => show win3_3.index t (0 : Fin 2) * 1 + 1 * (y 0).val = (y 0).val; omega
  | ⟨1, _⟩ => show win3_3.index t (1 : Fin 2) * 256 + 1 * (y 1).val = (y 1).val; omega

/-- The second weight matrix is read whole at every point. -/
theorem blk_4 (c : Dev nD) (t : Fin cfg3.N) : (iblk3 V c 4 t : Vec Ideal S256x256 .f32) = V c main_v64 := by
  obtain ⟨-, -, -, -, -, -, -, -, e0, e1, -⟩ := index_facts t
  funext y
  show V c main_v64 (((cfg3.win 4).blk t).view.emb y) = V c main_v64 y
  refine congrArg _ (funext fun a => Fin.ext ?_)
  match a with
  | ⟨0, _⟩ => show win3_4.index t (0 : Fin 2) * 256 + 1 * (y 0).val = (y 0).val; omega
  | ⟨1, _⟩ => show win3_4.index t (1 : Fin 2) * 256 + 1 * (y 1).val = (y 1).val; omega

/-- The second one-row bias is read whole at every point. -/
theorem blk_5 (c : Dev nD) (t : Fin cfg3.N) : (iblk3 V c 5 t : Vec Ideal S1x256 .f32) = V c main_v78 := by
  obtain ⟨-, -, -, -, -, -, -, -, -, -, e0, e1, -⟩ := index_facts t
  funext y
  show V c main_v78 (((cfg3.win 5).blk t).view.emb y) = V c main_v78 y
  refine congrArg _ (funext fun a => Fin.ext ?_)
  match a with
  | ⟨0, _⟩ => show win3_5.index t (0 : Fin 2) * 1 + 1 * (y 0).val = (y 0).val; omega
  | ⟨1, _⟩ => show win3_5.index t (1 : Fin 2) * 256 + 1 * (y 1).val = (y 1).val; omega

/-- Where entry `(p, q)` of the output's block `t` sits in the output array. -/
theorem emb_6 (t : Fin cfg3.N) (p : Fin 5000) (q : Fin 256) :
    ((cfg3.win 6).blk t).view.emb (ix2 p q) = ix2 (Cert.Gin.rowOf (pt t) p) q := by
  obtain ⟨-, -, -, -, -, -, -, -, -, -, -, -, e0, e1⟩ := index_facts t
  refine funext fun a => Fin.ext ?_
  match a with
  | ⟨0, _⟩ => show win3_6.index t (0 : Fin 2) * 5000 + 1 * p.val = 5000 * t.val + p.val; omega
  | ⟨1, _⟩ => show win3_6.index t (1 : Fin 2) * 256 + 1 * q.val = q.val; omega

/-- What point `t` writes back is block `t` of the double layer of the whole arrays. -/
theorem flushed_eq (c : Dev nD) (b1 b2 : (⟨Cert.ReferenceIdeal.S256, .f32⟩ : BufTy).Contents (Elt Ideal))
    (h3 : ∀ q : Fin 256, (V c main_v77 : Vec Ideal S1x256 .f32) (ix2 (0 : Fin 1) q) = b1 (ix1 q))
    (h5 : ∀ q : Fin 256, (V c main_v78 : Vec Ideal S1x256 .f32) (ix2 (0 : Fin 1) q) = b2 (ix1 q))
    (t : Fin cfg3.N) :
    (dat3 V c).flushed 6 t = ((cfg3.win 6).blk t).view.read (Elt Ideal)
      (Cert.Gin.mlp256 (F := Ideal) (V c main_v58) (V c main_v76) (V c main_v60) b1 (V c main_v64) b2) := by
  show (cfg3.win 6).cut (grid3.coords t) ((dat3 V c).after 6 t) = _
  rw [after3_6]
  unfold out3_6
  rw [View.canon_unit_zero zero_offsets]
  simp only [View.ld_unit_zero (S := S5000x256) zero_offsets, View.ld_unit_zero (S := S256x256) zero_offsets,
    View.ld_unit_zero (S := S1x256) zero_offsets, View.ld_unit_zero (S := S256x256) zero_offsets]
  funext j
  obtain ⟨p, q, rfl⟩ : ∃ (p : Fin 5000) (q : Fin 256), j = ix2 p q := ⟨j 0, j 1, eq_ix2 j⟩
  show k3_pay1 (F := Ideal) (iblk3 V c 0 t) (iblk3 V c 1 t) (iblk3 V c 2 t) (iblk3 V c 3 t) (iblk3 V c 4 t) (iblk3 V c 5 t) (ix2 p q)
    = Cert.Gin.mlp256 (F := Ideal) (V c main_v58) (V c main_v76) (V c main_v60) b1 (V c main_v64) b2 (((cfg3.win 6).blk t).view.emb (ix2 p q))
  rw [emb_6 t p q, blk_2 V c t, blk_3 V c t, blk_4 V c t, blk_5 V c t]
  exact Cert.Gin.pay1_apply (iblk3 V c 0 t) (iblk3 V c 1 t) (V c main_v60) (V c main_v77) (V c main_v64) (V c main_v78)
    (V c main_v58) (V c main_v76) b1 b2 (pt t) (blk_0 V c t) (blk_1 V c t) h3 h5 p q

/-- An index of the output array is in point `t`'s block iff each coordinate is in the block's range on its axis. -/
theorem mem_blk (t : Fin cfg3.N) (i : S50000x256.Idx) :
    i ∈ ((cfg3.win 6).blk t).view.set ↔ ∀ a : Fin 2, win3_6.index t a * S5000x256.size a ≤ (i a).val ∧ (i a).val < win3_6.index t a * S5000x256.size a + S5000x256.size a := by
  show i ∈ ((View.whole main_v79).slice (win3_6.rect t)).set ↔ _
  rw [View.set_slice_whole, Rect.mem_set_unit]
  exact Iff.rfl

/-- Every row of the output is in the block of the point `row / 5000`. -/
theorem cover (i : S50000x256.Idx) :
    ∃ t : Fin cfg3.N, (cfg3.win 6).flush t = true ∧ i ∈ ((cfg3.win 6).blk t).view.set := by
  have hi0 : (i 0).val < 50000 := (i 0).isLt
  have hi1 : (i 1).val < 256 := (i 1).isLt
  have hN : grid3.N = 10 := N_3
  let t : Fin cfg3.N := ⟨(i 0).val / 5000, by show (i 0).val / 5000 < grid3.N; omega⟩
  obtain ⟨-, -, -, -, -, -, -, -, -, -, -, -, e0, e1⟩ := index_facts t
  have ht : t.val = (i 0).val / 5000 := rfl
  refine ⟨t, flush3_6 t, ?_⟩
  rw [mem_blk]
  intro a
  match a with
  | ⟨0, _⟩ => show win3_6.index t (0 : Fin 2) * 5000 ≤ (i 0).val ∧ (i 0).val < win3_6.index t (0 : Fin 2) * 5000 + 5000; omega
  | ⟨1, _⟩ => show win3_6.index t (1 : Fin 2) * 256 ≤ (i 1).val ∧ (i 1).val < win3_6.index t (1 : Fin 2) * 256 + 256; omega

/-- After the region its output array is the double layer of the arrays it found. -/
theorem final (c : Dev nD) (H A : (⟨Cert.ReferenceIdeal.S50000x256, .f32⟩ : BufTy).Contents (Elt Ideal)) (w1 : (⟨Cert.ReferenceIdeal.S256x256, .f32⟩ : BufTy).Contents (Elt Ideal)) (b1 : (⟨Cert.ReferenceIdeal.S256, .f32⟩ : BufTy).Contents (Elt Ideal)) (w2 : (⟨Cert.ReferenceIdeal.S256x256, .f32⟩ : BufTy).Contents (Elt Ideal)) (b2 : (⟨Cert.ReferenceIdeal.S256, .f32⟩ : BufTy).Contents (Elt Ideal))
    (e0 : V c main_v58 = H) (e1 : V c main_v76 = A) (e2 : V c main_v60 = w1)
    (h3 : ∀ q : Fin 256, (V c main_v77 : Vec Ideal S1x256 .f32) (ix2 (0 : Fin 1) q) = b1 (ix1 q))
    (e4 : V c main_v64 = w2)
    (h5 : ∀ q : Fin 256, (V c main_v78 : Vec Ideal S1x256 .f32) (ix2 (0 : Fin 1) q) = b2 (ix1 q)) :
    (dat3 V c).arrAt 6 cfg3.N = Cert.Gin.mlp256 (F := Ideal) H A w1 b1 w2 b2 := by
  subst e0 e1 e2 e4
  exact (dat3 V c).arrAt_eq_of_cover 6 _ (fun t _ => flushed_eq V c b1 b2 h3 h5 t) cover

end Cert.KernelIdeal.Net.R3

end
-- ==== Proof.KernelRun.lean ====
/-
  The idealized kernel program's run with its result named: every weakly fair execution of the four regions and the
  host operations around them terminates, and the returned array holds what the last stretch of host operations
  leaves in it — the fold of the program's segments from the launch memory, read at the result's buffer —, the
  arguments unchanged.
-/
import proofs.«144491_j55198919688274_1_alg».proof.Proof.Gen.KernelIdeal.Frame

set_option maxRecDepth 16384

noncomputable section

namespace Cert.KernelIdeal.Net

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The program runs, its result ends at the last boundary's contents and its arguments as launched. -/
theorem run_result : θ_run defs (onTc (τ := τ) (main (F := F))) ⟨m, fun _ => 0, ρ⟩ (fun r => ∀ c : Dev nD,
      r.2.mem ((c.tc : Thread nD τ).loc main_v82) = W9 m ρ c (Proc.devRef .tc main_v82)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v82 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c),
       (h c _ (mem_uc main_arg9 (by decide))).trans (W9_main_arg9 m ρ c),
       (h c _ (mem_uc main_arg10 (by decide))).trans (W9_main_arg10 m ρ c)⟩)

end Cert.KernelIdeal.Net

end
-- ==== Proof.KernelNet.lean ====
/-
  The kernel program's result, as the network of `Cert.Gin.gin` applied to its arguments.

  Region by region: the arrays a region finds are the previous layer's output (left as written by the stretch of host
  operations between the regions), its neighbour sums, and the layer's weights and biases (the boundary facts and the
  reads of the host stretches); the region then leaves the layer's double dense map of them in its output array. The
  last stretch sums the last layer's rows per graph. Composing the four layers and the pooling gives the result, and
  the run of the program's segments ends with the result's buffer holding it.
-/
import proofs.«144491_j55198919688274_1_alg».proof.Proof.FoldVals
import proofs.«144491_j55198919688274_1_alg».proof.Proof.Blocks0
import proofs.«144491_j55198919688274_1_alg».proof.Proof.Blocks1
import proofs.«144491_j55198919688274_1_alg».proof.Proof.Blocks2
import proofs.«144491_j55198919688274_1_alg».proof.Proof.Blocks3
import proofs.«144491_j55198919688274_1_alg».proof.Proof.KernelRun

set_option maxRecDepth 16384

noncomputable section

namespace Cert.KernelIdeal.Net

open Idealize.ShloMosaic Idealize.ShloMosaic.TcCoe Idealize.ShloMosaic.Tactic Idealize.SL.Sem Idealize.ShloMosaic.StableHlo
open Cert.KernelIdeal Cert.KernelIdeal.Gen Idealize.ShloMosaic.ValueIdx

variable (m : (ℓ : Loc nD τ sig) → Buf (Elt Ideal) ℓ) (ρ : Dev nD → PrngReg)

/-- The first layer's output. -/
def h1 (c : Dev nD) := Cert.Gin.layer0 (F := Ideal) (m ((c : Thread nD τ).loc main_arg1)) (m ((c : Thread nD τ).loc main_arg0)) (m ((c : Thread nD τ).loc main_arg3)) (m ((c : Thread nD τ).loc main_arg4)) (m ((c : Thread nD τ).loc main_arg5)) (m ((c : Thread nD τ).loc main_arg6))
/-- The second layer's output. -/
def h2 (c : Dev nD) := Cert.Gin.layer (F := Ideal) (m ((c : Thread nD τ).loc main_arg1)) (h1 m c) (Cert.Gin.mat0 (m ((c : Thread nD τ).loc main_arg7))) (Cert.Gin.vec0 (m ((c : Thread nD τ).loc main_arg8))) (Cert.Gin.mat0 (m ((c : Thread nD τ).loc main_arg9))) (Cert.Gin.vec0 (m ((c : Thread nD τ).loc main_arg10)))
/-- The third layer's output. -/
def h3 (c : Dev nD) := Cert.Gin.layer (F := Ideal) (m ((c : Thread nD τ).loc main_arg1)) (h2 m c) (Cert.Gin.mat1 (m ((c : Thread nD τ).loc main_arg7))) (Cert.Gin.vec1 (m ((c : Thread nD τ).loc main_arg8))) (Cert.Gin.mat1 (m ((c : Thread nD τ).loc main_arg9))) (Cert.Gin.vec1 (m ((c : Thread nD τ).loc main_arg10)))
/-- The fourth layer's output. -/
def h4 (c : Dev nD) := Cert.Gin.layer (F := Ideal) (m ((c : Thread nD τ).loc main_arg1)) (h3 m c) (Cert.Gin.mat2 (m ((c : Thread nD τ).loc main_arg7))) (Cert.Gin.vec2 (m ((c : Thread nD τ).loc main_arg8))) (Cert.Gin.mat2 (m ((c : Thread nD τ).loc main_arg9))) (Cert.Gin.vec2 (m ((c : Thread nD τ).loc main_arg10)))

/-- Region 0 leaves the first layer's output. -/
theorem out0 (c : Dev nD) : W2 m ρ c (Proc.devRef .tc main_v16) = h1 m c :=
  (W2_arr m ρ c 6).trans (R0.final (V1 m ρ) c (m ((c : Thread nD τ).loc main_arg0)) (Cert.Gin.agg128 (F := Ideal) (m ((c : Thread nD τ).loc main_arg1)) (m ((c : Thread nD τ).loc main_arg0))) (m ((c : Thread nD τ).loc main_arg3)) (m ((c : Thread nD τ).loc main_arg4)) (m ((c : Thread nD τ).loc main_arg5)) (m ((c : Thread nD τ).loc main_arg6))
    (W1_main_arg0 m ρ c) (W1_main_v13 m ρ c) (W1_main_arg3 m ρ c) (W1_main_v14 m ρ c) (W1_main_arg5 m ρ c) (W1_main_v15 m ρ c))

/-- Region 1 finds the previous layer's output and its neighbour sums. -/
theorem in1_h (c : Dev nD) : V3 m ρ c main_v16 = h1 m c := (W3_main_v16 m ρ c).trans (out0 m ρ c)
theorem in1_a (c : Dev nD) : V3 m ρ c main_v34 = Cert.Gin.agg256 (F := Ideal) (m ((c : Thread nD τ).loc main_arg1)) (h1 m c) :=
  (W3_main_v34 m ρ c).trans (congrArg (Cert.Gin.agg256 (F := Ideal) (m ((c : Thread nD τ).loc main_arg1))) (out0 m ρ c))

/-- Region 1 leaves the next layer's output. -/
theorem out1 (c : Dev nD) : W4 m ρ c (Proc.devRef .tc main_v37) = h2 m c :=
  (W4_arr m ρ c 6).trans (R1.final (V3 m ρ) c (h1 m c) (Cert.Gin.agg256 (F := Ideal) (m ((c : Thread nD τ).loc main_arg1)) (h1 m c))
    (Cert.Gin.mat0 (m ((c : Thread nD τ).loc main_arg7))) (Cert.Gin.vec0 (m ((c : Thread nD τ).loc main_arg8))) (Cert.Gin.mat0 (m ((c : Thread nD τ).loc main_arg9))) (Cert.Gin.vec0 (m ((c : Thread nD τ).loc main_arg10)))
    (in1_h m ρ c) (in1_a m ρ c) (W3_main_v18 m ρ c) (W3_main_v35 m ρ c) (W3_main_v22 m ρ c) (W3_main_v36 m ρ c))

/-- Region 2 finds the previous layer's output and its neighbour sums. -/
theorem in2_h (c : Dev nD) : V5 m ρ c main_v37 = h2 m c := (W5_main_v37 m ρ c).trans (out1 m ρ c)
theorem in2_a (c : Dev nD) : V5 m ρ c main_v55 = Cert.Gin.agg256 (F := Ideal) (m ((c : Thread nD τ).loc main_arg1)) (h2 m c) :=
  (W5_main_v55 m ρ c).trans (congrArg (Cert.Gin.agg256 (F := Ideal) (m ((c : Thread nD τ).loc main_arg1))) (out1 m ρ c))

/-- Region 2 leaves the next layer's output. -/
theorem out2 (c : Dev nD) : W6 m ρ c (Proc.devRef .tc main_v58) = h3 m c :=
  (W6_arr m ρ c 6).trans (R2.final (V5 m ρ) c (h2 m c) (Cert.Gin.agg256 (F := Ideal) (m ((c : Thread nD τ).loc main_arg1)) (h2 m c))
    (Cert.Gin.mat1 (m ((c : Thread nD τ).loc main_arg7))) (Cert.Gin.vec1 (m ((c : Thread nD τ).loc main_arg8))) (Cert.Gin.mat1 (m ((c : Thread nD τ).loc main_arg9))) (Cert.Gin.vec1 (m ((c : Thread nD τ).loc main_arg10)))
    (in2_h m ρ c) (in2_a m ρ c) (W5_main_v39 m ρ c) (W5_main_v56 m ρ c) (W5_main_v43 m ρ c) (W5_main_v57 m ρ c))

/-- Region 3 finds the previous layer's output and its neighbour sums. -/
theorem in3_h (c : Dev nD) : V7 m ρ c main_v58 = h3 m c := (W7_main_v58 m ρ c).trans (out2 m ρ c)
theorem in3_a (c : Dev nD) : V7 m ρ c main_v76 = Cert.Gin.agg256 (F := Ideal) (m ((c : Thread nD τ).loc main_arg1)) (h3 m c) :=
  (W7_main_v76 m ρ c).trans (congrArg (Cert.Gin.agg256 (F := Ideal) (m ((c : Thread nD τ).loc main_arg1))) (out2 m ρ c))

/-- Region 3 leaves the next layer's output. -/
theorem out3 (c : Dev nD) : W8 m ρ c (Proc.devRef .tc main_v79) = h4 m c :=
  (W8_arr m ρ c 6).trans (R3.final (V7 m ρ) c (h3 m c) (Cert.Gin.agg256 (F := Ideal) (m ((c : Thread nD τ).loc main_arg1)) (h3 m c))
    (Cert.Gin.mat2 (m ((c : Thread nD τ).loc main_arg7))) (Cert.Gin.vec2 (m ((c : Thread nD τ).loc main_arg8))) (Cert.Gin.mat2 (m ((c : Thread nD τ).loc main_arg9))) (Cert.Gin.vec2 (m ((c : Thread nD τ).loc main_arg10)))
    (in3_h m ρ c) (in3_a m ρ c) (W7_main_v60 m ρ c) (W7_main_v77 m ρ c) (W7_main_v64 m ρ c) (W7_main_v78 m ρ c))

/-- The returned array is the network of the arguments. -/
theorem result (c : Dev nD) : W9 m ρ c (Proc.devRef .tc main_v82) = Cert.Gin.gin (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  (W9_main_v82 m ρ c).trans (congrArg (Cert.Gin.pool (F := Ideal) (m ((c : Thread nD τ).loc main_arg2))) (out3 m ρ c))

/-- The program runs, its result ends at the network of the arguments and its arguments as launched. -/
theorem run : θ_run defs (onTc (τ := τ) (main (F := Ideal))) ⟨m, fun _ => 0, ρ⟩ (fun r => ∀ c : Dev nD,
      r.2.mem ((c.tc : Thread nD τ).loc main_v82) = Cert.Gin.gin (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c).1.trans (result m ρ c), (h c).2⟩) (run_result m ρ)

end Cert.KernelIdeal.Net

end
-- ==== Proof.lean ====
/-
  The idealized kernel program and the idealized reference compute the same four-layer graph network with sum
  pooling (`Cert.Gin.gin`, Proof/GinSpec.lean), so from memories agreeing on the arguments they end with equal results.

  The reference is the network by unfolding (Proof/RefNet.lean). The kernel program computes the neighbour sums and the
  pooling with the same host operations as the reference, and each of its four kernel regions computes one layer's two
  dense maps block by block of 5000 rows: a row of `relu (relu ((h + a) · w1 + b1) · w2 + b2)` depends on the same row of
  `h` and `a` only, and at the exact instance both programs' matrix products are the same finite sums
  (Proof/GinPayload.lean, Proof/Blocks0–3.lean); the contents of every buffer a later segment reads are followed through
  the program's segments (Proof/FoldEnv.lean, Proof/FoldVals.lean, Proof/KernelNet.lean). No algebraic law beyond the
  definitions of the operations is used, so the finiteness of the inputs is not needed.

  The three frames are the programs' runs with the results dropped; the idealization rewrote nothing, so `preserves`
  is trivial.
-/
import proofs.«144491_j55198919688274_1_alg».proof.Defs
import proofs.«144491_j55198919688274_1_alg».proof.Proof.Gen.Kernel
import proofs.«144491_j55198919688274_1_alg».proof.Proof.Gen.Kernel.Skeleton
import proofs.«144491_j55198919688274_1_alg».proof.Proof.Gen.Kernel.Launch
import proofs.«144491_j55198919688274_1_alg».proof.Proof.Gen.Kernel.Points
import proofs.«144491_j55198919688274_1_alg».proof.Proof.Gen.Kernel.Frame
import proofs.«144491_j55198919688274_1_alg».proof.Proof.Gen.KernelIdeal
import proofs.«144491_j55198919688274_1_alg».proof.Proof.Gen.KernelIdeal.Skeleton
import proofs.«144491_j55198919688274_1_alg».proof.Proof.Gen.KernelIdeal.Launch
import proofs.«144491_j55198919688274_1_alg».proof.Proof.Gen.KernelIdeal.Points
import proofs.«144491_j55198919688274_1_alg».proof.Proof.Gen.KernelIdeal.Frame
import proofs.«144491_j55198919688274_1_alg».proof.Proof.Gen.ReferenceIdeal
import proofs.«144491_j55198919688274_1_alg».proof.Proof.Gen.ReferenceIdeal.Run
import proofs.«144491_j55198919688274_1_alg».proof.Proof.Gen.Pre_finite_inputs
import proofs.«144491_j55198919688274_1_alg».proof.Proof.RefNet
import proofs.«144491_j55198919688274_1_alg».proof.Proof.KernelNet
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the network of the (agreeing) arguments in their result. -/
theorem algebraic : Cert.algebraic_KernelIdeal_ReferenceIdeal := by
  intro m ρ m' ρ' _ hagree
  refine ⟨fun c => Cert.Gin.gin (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)),
    Cert.KernelIdeal.Net.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10⟩ := hagree c
  rw [Cert.Gin.ref_result, a0, a1, a2, a3, a4, a5, a6, a7, a8, a9, a10]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
